-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_eps" .f32 0x4CBEBC20#32 ((1125899906842624 / 11258999 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : IVec S8192 32) (main_arg2 : IVec S4096 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192 : Shape := ⟨1, ![8192]⟩
abbrev S4096 : Shape := ⟨1, ![4096]⟩
abbrev S_ : Shape := ⟨0, ![]⟩
abbrev S4096x1 : Shape := ⟨2, ![4096, 1]⟩
abbrev S4096x1024 : Shape := ⟨2, ![4096, 1024]⟩
abbrev S1x4096 : Shape := ⟨2, ![1, 4096]⟩
abbrev S16x8x128 : Shape := ⟨3, ![16, 8, 128]⟩
abbrev S256x1024 : Shape := ⟨2, ![256, 1024]⟩
abbrev S256x1 : Shape := ⟨2, ![256, 1]⟩
abbrev S1x8x128 : Shape := ⟨3, ![1, 8, 128]⟩
abbrev S256x4096 : Shape := ⟨2, ![256, 4096]⟩
abbrev S256 : Shape := ⟨1, ![256]⟩
abbrev S1 : Shape := ⟨1, ![1]⟩
abbrev S1x1 : Shape := ⟨2, ![1, 1]⟩
abbrev S8x128 : Shape := ⟨2, ![8, 128]⟩
abbrev S16x1x1 : Shape := ⟨3, ![16, 1, 1]⟩
abbrev S16 : Shape := ⟨1, ![16]⟩

abbrev nBuf : Space → Nat
  | .hbm => 40
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x1024, .f32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S4096x1024, .bf16⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1, .f32⟩
  | .hbm, ⟨30, _⟩ => ⟨S1x4096, .f32⟩
  | .hbm, ⟨31, _⟩ => ⟨S4096x1, .i32⟩
  | .hbm, ⟨32, _⟩ => ⟨S1x4096, .i32⟩
  | .hbm, ⟨33, _⟩ => ⟨S16x8x128, .f32⟩
  | .hbm, ⟨34, _⟩ => ⟨S16x1x1, .f32⟩
  | .hbm, ⟨35, _⟩ => ⟨S16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S256x1, .f32⟩
  | .local _ .vmem, ⟨4, _⟩ => ⟨S256x1, .f32⟩
  | .local _ .vmem, ⟨5, _⟩ => ⟨S1x4096, .f32⟩
  | .local _ .vmem, ⟨6, _⟩ => ⟨S256x1, .i32⟩
  | .local _ .vmem, ⟨7, _⟩ => ⟨S256x1, .i32⟩
  | .local _ .vmem, ⟨8, _⟩ => ⟨S1x4096, .i32⟩
  | .local _ .vmem, ⟨9, _⟩ => ⟨S1x8x128, .f32⟩
  | .local _ .vmem, ⟨10, _⟩ => ⟨S1x8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  reducesTo_S4096x1024_S4096_d1 : S4096x1024.ReducesTo [1] S4096
  h_S_ : 0 < S_.numel
  shapeCasts_S4096_S4096x1 : S4096.ShapeCasts S4096x1
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  natLt_1_32 : 1 < 32
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S16x8x128_S16x1x1_0_0_0 : S16x8x128.Slices ![0, 0, 0] S16x1x1
  shapeCasts_S16x1x1_S16 : S16x1x1.ShapeCasts S16
  reducesTo_S16_S_d0 : S16.ReducesTo [0] S_
  gather_S8192x1024_S4096x1_S4096x1024_1_0_n_n_0_1_11024_wf : GatherDims.WF S8192x1024 S4096x1 S4096x1024 [1] [0] [] [0] [] 1 ![1, 1024]
  gather_S8192_S4096x1_S4096_n_0_n_n_0_1_1_wf : GatherDims.WF S8192 S4096x1 S4096 [] [0] [] [0] [] 1 ![1]
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .i32 = 32 ∨ (Rect.block (s := S4096x1) S256x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .i32 = 32 ∨ (Rect.block (s := S1x4096) S1x4096.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S16x8x128.size a
  hwx0_6 : ∀ i : grid0.Coords, EltTy.bits .f32 = 32 ∨ (Rect.block (s := S16x8x128) S1x8x128.size (cc0_transform_6 i) (hinb0_6 i)).WholeWords (EltTy.packing .f32)

variable [Facts₀]

def gather_S8192x1024_S4096x1_S4096x1024_1_0_n_n_0_1_11024 : GatherDims S8192x1024 S4096x1 S4096x1024 where
  offsetDims := [1]
  collapsedSliceDims := [0]
  operandBatchingDims := []
  startIndicesBatchingDims := []
  startIndexMap := [0]
  indexVectorDim := 1
  sliceSizes := ![1, 1024]
  wf := gather_S8192x1024_S4096x1_S4096x1024_1_0_n_n_0_1_11024_wf
def gather_S8192_S4096x1_S4096_n_0_n_n_0_1_1 : GatherDims S8192 S4096x1 S4096 where
  offsetDims := []
  collapsedSliceDims := [0]
  operandBatchingDims := []
  startIndicesBatchingDims := []
  startIndexMap := [0]
  indexVectorDim := 1
  sliceSizes := ![1]
  wf := gather_S8192_S4096x1_S4096_n_0_n_n_0_1_1_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v14) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S4096 : Shape := ⟨1, ![4096]⟩
abbrev S_ : Shape := ⟨0, ![]⟩
abbrev S4096x1 : Shape := ⟨2, ![4096, 1]⟩
abbrev S4096x1024 : Shape := ⟨2, ![4096, 1024]⟩
abbrev S4096x4096 : Shape := ⟨2, ![4096, 4096]⟩
abbrev S1x4096 : Shape := ⟨2, ![1, 4096]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x4096, .f32⟩
  | .hbm, ⟨17, _⟩ => ⟨S4096x1, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S4096, .i32⟩
  | .hbm, ⟨35, _⟩ => ⟨S4096x1, .i32⟩
  | .hbm, ⟨36, _⟩ => ⟨S1x4096, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .i1⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x1024_S4096_d1 : S4096x1024.ReducesTo [1] S4096
  h_S_ : 0 < S_.numel
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  gather_S8192x1024_S4096x1_S4096x1024_1_0_n_n_0_1_11024_wf : GatherDims.WF S8192x1024 S4096x1 S4096x1024 [1] [0] [] [0] [] 1 ![1, 1024]
  dot_S4096x1024_S4096x1024_S4096x4096_1_1_0_0_n_n_wf : DotDims.WF S4096x1024 S4096x1024 S4096x4096 [1] [1] [0] [0] [] []
  gather_S8192_S4096x1_S4096_n_0_n_n_0_1_1_wf : GatherDims.WF S8192 S4096x1 S4096 [] [0] [] [0] [] 1 ![1]

variable [Facts₀]

def gather_S8192x1024_S4096x1_S4096x1024_1_0_n_n_0_1_11024 : GatherDims S8192x1024 S4096x1 S4096x1024 where
  offsetDims := [1]
  collapsedSliceDims := [0]
  operandBatchingDims := []
  startIndicesBatchingDims := []
  startIndexMap := [0]
  indexVectorDim := 1
  sliceSizes := ![1, 1024]
  wf := gather_S8192x1024_S4096x1_S4096x1024_1_0_n_n_0_1_11024_wf
def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf
def gather_S8192_S4096x1_S4096_n_0_n_n_0_1_1 : GatherDims S8192 S4096x1 S4096 where
  offsetDims := []
  collapsedSliceDims := [0]
  operandBatchingDims := []
  startIndicesBatchingDims := []
  startIndexMap := [0]
  indexVectorDim := 1
  sliceSizes := ![1]
  wf := gather_S8192_S4096x1_S4096_n_0_n_n_0_1_1_wf

class Facts : Prop extends Facts₀ where

variable [Facts]
-- ==== Proof.BodyB.lean ====
/-
  The kernel body run once on whole staging buffers.

  One grid point of the kernel reads six input blocks — a block of 256 rows of the row matrix, the whole row matrix,
  the 256 reciprocal row norms of the block as a column, all 4096 reciprocal norms as a row, and the block's and all
  rows' token words laid out the same way — and writes ONE number, the block's partial loss, into every entry of its
  1×8×128 output block.  This module states that as a triple: from the six input buffers at any contents and the
  output buffer at anything, the body ends with the inputs untouched and the output buffer at `outBlk` of the inputs.
-/
import proofs.«171782_j38457137168846_2_alg».proof.Proof.Gen.Kernel.Launch
import proofs.«171782_j38457137168846_2_alg».proof.Proof.Gen.Kernel.Skeleton
import proofs.«171782_j38457137168846_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: every one is its whole buffer -/

abbrev rX : Rect S256x1024 := Rect.unit (s := S256x1024) ![0, 0] S256x1024.size inb_S256x1024_S256x1024_0_0
abbrev rA : Rect S4096x1024 := Rect.unit (s := S4096x1024) ![0, 0] S4096x1024.size inb_S4096x1024_S4096x1024_0_0
abbrev rC : Rect S256x1 := Rect.unit (s := S256x1) ![0, 0] S256x1.size inb_S256x1_S256x1_0_0
abbrev rR : Rect S1x4096 := Rect.unit (s := S1x4096) ![0, 0] S1x4096.size inb_S1x4096_S1x4096_0_0
abbrev rO : Rect S1x8x128 := Rect.unit (s := S1x8x128) ![0, 0, 0] S1x8x128.size inb_S1x8x128_S1x8x128_0_0_0

/-- What the body leaves in the output block: the block's partial loss (`k0_pay2` of the six loads, summed down the rows
    by `k0_pay1`) written to the whole 1×8×128 buffer. -/
def outBlk (x0 : Vec F S256x1024 .bf16) (x1 : Vec F S4096x1024 .bf16) (x2 : Vec F S256x1 .f32) (x3 : Vec F S1x4096 .f32)
    (x4 : Vec F S256x1 .i32) (x5 : Vec F S1x4096 .i32) : Vec F S1x8x128 .f32 :=
  View.canon [⟨rO, k0_pay1 (k0_pay2 (View.ld x0 rX) (View.ld x1 rA) (View.ld x2 rC) (View.ld x3 rR) (View.ld x4 rC) (View.ld x5 rR))⟩]

/-- The one store covers the output buffer. -/
theorem coverO (p0 : Vec F S1x8x128 .f32) (y : S1x8x128.Idx) :
    ∃ pc ∈ ([⟨rO, p0⟩] : List (View.Piece (Elt F) S1x8x128 .f32)), y ∈ pc.1.set :=
  View.cover_of_tiled [⟨rO, p0⟩] S1x8x128.size (by rfl) y

set_option maxHeartbeats 1000000 in
/-- The body's triple. -/
theorem sound_kernel (c : Dev nD) (E : Set ℕ) (i : grid0.Coords)
    (arg1 : Memref sig .tc .vmem S256x1024 .bf16) (harg1 : arg1.IsWhole) (arg2 : Memref sig .tc .vmem S4096x1024 .bf16) (harg2 : arg2.IsWhole)
    (arg3 : Memref sig .tc .vmem S256x1 .f32) (harg3 : arg3.IsWhole) (arg4 : Memref sig .tc .vmem S1x4096 .f32) (harg4 : arg4.IsWhole)
    (arg5 : Memref sig .tc .vmem S256x1 .i32) (harg5 : arg5.IsWhole) (arg6 : Memref sig .tc .vmem S1x4096 .i32) (harg6 : arg6.IsWhole)
    (arg7 : Memref sig .tc .vmem S1x8x128 .f32) (harg7 : arg7.IsWhole)
    (x0 : Vec F S256x1024 .bf16) (x1 : Vec F S4096x1024 .bf16) (x2 : Vec F S256x1 .f32) (x3 : Vec F S1x4096 .f32)
    (x4 : Vec F S256x1 .i32) (x5 : Vec F S1x4096 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E
          (cc0__loss_kernel i arg1 harg1 arg2 harg2 arg3 harg3 arg4 harg4 arg5 harg5 arg6 harg6 arg7 harg7) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (coverO _)

end Cert.Kernel.Hand

end
-- ==== Proof.DataB.lean ====
/-
  The proof data of the kernel's one pipeline, and the body obligation at every grid point.

  Grid point t (of 16) is handed rows 256·t … 256·t+255 of the row matrix, of the reciprocal norms and of the token
  words, together with the whole row matrix and the whole rows of reciprocal norms and token words; it leaves every
  input block as it found it and the output block at `outBlk` of the six.  The row matrix reaches the kernel through
  TWO windows (the row block and the whole matrix): each is lent half of the array's share.
-/
import proofs.«171782_j38457137168846_2_alg».proof.Proof.BodyB
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers as launched, as a valuation, -/
abbrev V₀ (c : Dev nD) : Valuation τ sig (Elt F) := fun b => m (c, b)
/-- and when the kernel region is entered: the thirty host operations before it have run. -/
def V0 (c : Dev nD) : Valuation τ sig (Elt F) := StableHlo.after hostOps0 (V₀ m c)
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: the arrays as the region finds them; after the body each input's buffer at its block and the
    output's at `outBlk` of the six input blocks; the invariant is the scoped buffers no window stages; the two windows
    on the row matrix hold the two halves of its share; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.scopedRest spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBlk (iblk m c 0 t) (iblk m c 1 t) (iblk m c 2 t) (iblk m c 3 t) (iblk m c 4 t) (iblk m c 5 t) := by dsimp only [dats]

/-! Each input's current staging buffer holds its block at every point, fetched there or not (the three whole-array
    windows are fetched once; their block never moves). -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunB.lean ====
/-
  The run of @main: thirty host operations, the kernel region, six host operations.

  The launch is the library's theorem for a @main that is a list of segments.  Between segments the core holds every
  unscoped buffer whole at a valuation.  At the region's entry the buffers behind the windows' arrays are sorted out of
  that set; the row matrix, which two windows read, is lent to each at half its share, and the halves are joined again
  at the exit, where the output array's buffer holds what the sixteen write-backs left.  The conclusion names every
  unscoped buffer's final contents as a term of the launch memory.
-/
import proofs.«171782_j38457137168846_2_alg».proof.Proof.DataB
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one, at their shares -/

/-- The pipeline's arrays at contents `G`: the row matrix twice, at the two halves of its share, and the five other
    arrays whole. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_v14) ↦{fullShare.left} G 0) ∗ (((c : Thread nD τ).loc main_v14) ↦{fullShare.right} G 1)
          ∗ (((c : Thread nD τ).loc main_v20) ↦{fullShare} G 2) ∗ (((c : Thread nD τ).loc main_v21) ↦{fullShare} G 3)
          ∗ (((c : Thread nD τ).loc main_v22) ↦{fullShare} G 4) ∗ (((c : Thread nD τ).loc main_v23) ↦{fullShare} G 5)
          ∗ (((c : Thread nD τ).loc main_v24) ↦{fullShare} G 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ]
  rfl

/-- The buffers behind the arrays, listed. -/
theorem arrBufs_list (c : Dev nD) (W : (b : Ref sig .tc) → Buf (Elt F) ((c : Thread nD τ).loc b)) :
    (Pipeline.arrBufs spec0 c W : sProp 𝕄)
      = iprop((((c : Thread nD τ).loc main_v14) ↦{fullShare} W main_v14) ∗ (((c : Thread nD τ).loc main_v20) ↦{fullShare} W main_v20)
          ∗ (((c : Thread nD τ).loc main_v21) ↦{fullShare} W main_v21) ∗ (((c : Thread nD τ).loc main_v22) ↦{fullShare} W main_v22)
          ∗ (((c : Thread nD τ).loc main_v23) ↦{fullShare} W main_v23) ∗ (((c : Thread nD τ).loc main_v24) ↦{fullShare} W main_v24)) := by
  unfold Pipeline.arrBufs
  rw [bigSep_eq_bigSepL_of_eq [main_v14, main_v20, main_v21, main_v22, main_v23, main_v24] (by decide) (by decide)]
  rfl

/-! ## Entering and leaving the region -/

/-- At the entry the six buffers behind the arrays, whole at the entry contents, make the pipeline's arrays: the row
    matrix's points-to is halved between the two windows that read it. -/
theorem arrays_of_arrBufs (c : Dev nD) :
    (Pipeline.arrBufs spec0 c (V m c) : sProp 𝕄) ⊢ (dats m 0 c).arrays ((dats m 0 c).arrAt · 0) := by
  rw [arrays_list, arrBufs_list]
  iintro ⟨H14, H20, H21, H22, H23, H24⟩
  ihave H := (pointsTo_share (PosShare.mem_left_op_right fullShare)).1 $$ H14
  icases H with ⟨Hl, Hr⟩
  isplitl [Hl]; · iexact Hl
  isplitl [Hr]; · iexact Hr
  isplitl [H20]; · iexact H20
  isplitl [H21]; · iexact H21
  isplitl [H22]; · iexact H22
  isplitl [H23]; · iexact H23
  iexact H24

/-- The output array once every grid point's block has been written back. -/
def outArr (c : Dev nD) : Buf (Elt F) ((c : Thread nD τ).loc main_v24) := (dats m 0 c).arrAt 6 cfg0.N

/-- The core's buffers when the region is left: the output array's buffer at `outArr`, every other as at the entry. -/
abbrev V1 (c : Dev nD) : Valuation τ sig (Elt F) := (StableHlo.nullary main_v24 (outArr m c)).result (V0 m c)
/-- And at the end: the six host operations after the region have run. -/
abbrev V2 (c : Dev nD) : Valuation τ sig (Elt F) := StableHlo.after hostOps1 (V1 m c)

theorem V1_out (c : Dev nD) : V1 m c (Proc.devRef .tc main_v24) = outArr m c := StableHlo.nullary_result _ _ _ _
theorem V1_ne (c : Dev nD) {r : Ref sig .tc} (h : r ≠ main_v24) : V1 m c (Proc.devRef .tc r) = V0 m c (Proc.devRef .tc r) :=
  StableHlo.nullary_result_ne _ _ _ _ h

set_option maxHeartbeats 2000000 in
/-- At the exit the arrays, the inputs' unchanged and the output's at `outArr`, are the six buffers at the exit contents:
    the two halves of the row matrix's share are joined. -/
theorem arrBufs_of_arrays (c : Dev nD) :
    ((dats m 0 c).arrays ((dats m 0 c).arrAt · cfg0.N) : sProp 𝕄) ⊢ Pipeline.arrBufs spec0 c (fun b => V1 m c (Proc.devRef .tc b)) := by
  rw [arrays_list, arrBufs_list]
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl]
  rw [show (dats m 0 c).A 0 = V0 m c (Proc.devRef .tc main_v14) from rfl, show (dats m 0 c).A 1 = V0 m c (Proc.devRef .tc main_v14) from rfl,
    show (dats m 0 c).A 2 = V0 m c (Proc.devRef .tc main_v20) from rfl, show (dats m 0 c).A 3 = V0 m c (Proc.devRef .tc main_v21) from rfl,
    show (dats m 0 c).A 4 = V0 m c (Proc.devRef .tc main_v22) from rfl, show (dats m 0 c).A 5 = V0 m c (Proc.devRef .tc main_v23) from rfl,
    show (dats m 0 c).arrAt 6 cfg0.N = outArr m c from rfl]
  beta_reduce
  rw [V1_out, V1_ne m c (by decide : main_v14 ≠ main_v24), V1_ne m c (by decide : main_v20 ≠ main_v24),
    V1_ne m c (by decide : main_v21 ≠ main_v24), V1_ne m c (by decide : main_v22 ≠ main_v24), V1_ne m c (by decide : main_v23 ≠ main_v24)]
  iintro ⟨Hl, Hr, H20, H21, H22, H23, H24⟩
  isplitl [Hl Hr]
  · iapply (pointsTo_share (PosShare.mem_left_op_right fullShare)).2
    isplitl [Hl]; · iexact Hl
    iexact Hr
  isplitl [H20]; · iexact H20
  isplitl [H21]; · iexact H21
  isplitl [H22]; · iexact H22
  isplitl [H23]; · iexact H23
  iexact H24

/-- The buffers no window stages hold at the exit what they held at the entry. -/
theorem unscopedRest_V1 (c : Dev nD) :
    (Pipeline.unscopedRest spec0 c (fun b => V1 m c (Proc.devRef .tc b)) : sProp 𝕄) = Pipeline.unscopedRest spec0 c (V m c) := by
  unfold Pipeline.unscopedRest
  refine bigSep_congr fun b hb => ?_
  beta_reduce
  rw [V1_ne m c (fun h => (Finset.mem_sdiff.mp hb).2 (Finset.mem_image.mpr ⟨6, Finset.mem_univ _, h.symm⟩))]

/-! ## The segments and the launch -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the whole user component. -/
abbrev EP : Emb (UR sig nD τ) (MT nD τ sig Unit (Elt F) ℕ (UR sig nD τ) ℕ) := emb₁
/-- What rides beside the buffers through the host operations: the core owes nothing. -/
abbrev R (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The thirty host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The six after it, from the exit contents. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (V1 m) R

set_option backward.isDefEq.respectTransparency.types false in
/-- The region: entered from the unscoped buffers at the entry contents, left with them at the exit contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c)]
    iintro ⟨⟨⟨Ha, Hz⟩, HO⟩, -, -⟩
    ihave Ha' := (arrays_of_arrBufs m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = Pipeline.scopedRest spec0 c from rfl]
    iintro ⟨-, -, Hr⟩; iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [show StableHlo.held (c : Thread nD τ) (Pipeline.ucRefs τ sig) (V1 m c) = unscopedBufs c (fun b => V1 m c (Proc.devRef .tc b)) from (Pipeline.unscopedBufs_held c _).symm,
      Pipeline.unscopedBufs_split₀ cfgs 0 winFacts₀0.arr_unscoped c _, unscopedRest_V1]
    iintro ⟨Ha, HO, -, HZ⟩
    ihave Ha' := (arrBufs_of_arrays m c) $$ Ha
    imodintro
    isplitr [HO]
    · isplitl [Ha']; · iexact Ha'
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The launch element: the pipeline library's at the staging cells. -/
def u₀ : UR sig nD τ := initOf (Pipeline.cells cfgs cellOf_inj) (Pipeline.launchToks cfgs cellOf_inj)

/-- The unscoped references of the TensorCore. -/
abbrev ucs : Finset (Ref sig .tc) := Finset.univ.filter fun b : Ref sig .tc => ¬ b.isScoped

/-- The physical post: every unscoped buffer ends at the exit contents carried through the six last operations. -/
def QC : PUnit × MemSt nD τ sig (Elt F) → Prop := fun r =>
  ∀ c : Dev nD, ∀ b ∈ ucs, r.2.mem ((c : Thread nD τ).loc b) = V2 m c (Proc.devRef .tc b)

set_option backward.isDefEq.respectTransparency.types false in
/-- At the compiled mesh, from any memory with zero counters: every weakly fair execution of @main on the TensorCores
    terminates, nothing faulting, and every unscoped buffer ends at `V2`. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (EP (initOf (Pipeline.cells (Pipeline.pin (pcfgs (F := F)) adm) cellOf_inj)
          (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V2 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ ucs, s.mem ((c : Thread nD τ).loc b) = V2 m c (Proc.devRef .tc b))
    (hfin := fun c s' => by
      rw [show StableHlo.held (c : Thread nD τ) (Pipeline.ucRefs τ sig) (V2 m c) = unscopedBufs c (fun b => V2 m c (Proc.devRef .tc b)) from (Pipeline.unscopedBufs_held c _).symm]
      unfold unscopedBufs
      iintro ⟨HU, HSI⟩
      imodintro
      iapply (pointsTo_read_all ucs (fun b => (c : Thread nD τ).loc b) (fun b => V2 m c (Proc.devRef .tc b)) s')
      isplitl [HU] <;> iassumption)
    (hQ := fun _ h => h)

/-- info: 'Cert.Kernel.Hand.run_main' depends on axioms: [propext, Classical.choice, Quot.sound] -/
#guard_msgs in #print axioms run_main

/-! ## The arguments end as launched -/

theorem V2_main_arg0 (c : Dev nD) : V2 m c (Proc.devRef .tc main_arg0) = m ((c : Thread nD τ).loc main_arg0) := by
  unfold V2
  rw [StableHlo.after_of_forall_not_mem (b := Proc.devRef .tc main_arg0) hostOps1 _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    V1_ne m c (by decide : main_arg0 ≠ main_v24)]
  unfold V0
  exact StableHlo.after_of_forall_not_mem (b := Proc.devRef .tc main_arg0) hostOps0 _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V2_main_arg1 (c : Dev nD) : V2 m c (Proc.devRef .tc main_arg1) = m ((c : Thread nD τ).loc main_arg1) := by
  unfold V2
  rw [StableHlo.after_of_forall_not_mem (b := Proc.devRef .tc main_arg1) hostOps1 _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    V1_ne m c (by decide : main_arg1 ≠ main_v24)]
  unfold V0
  exact StableHlo.after_of_forall_not_mem (b := Proc.devRef .tc main_arg1) hostOps0 _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V2_main_arg2 (c : Dev nD) : V2 m c (Proc.devRef .tc main_arg2) = m ((c : Thread nD τ).loc main_arg2) := by
  unfold V2
  rw [StableHlo.after_of_forall_not_mem (b := Proc.devRef .tc main_arg2) hostOps1 _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    V1_ne m c (by decide : main_arg2 ≠ main_v24)]
  unfold V0
  exact StableHlo.after_of_forall_not_mem (b := Proc.devRef .tc main_arg2) hostOps0 _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem mem_ucs (b : Ref sig .tc) (h : b.isScoped = false) : b ∈ ucs :=
  Finset.mem_filter.mpr ⟨Finset.mem_univ _, by rw [h]; exact Bool.false_ne_true⟩

/-- The run with the result buffer and the three argument arrays read off: the result at the exit contents carried
    through the last six operations, the arguments as launched. -/
theorem run_value : θ_run defs (onTc (τ := τ) (main (F := F))) ⟨m, fun _ => 0, ρ⟩ (fun r => ∀ c : Dev nD,
      r.2.mem ((c : Thread nD τ).loc main_v28) = V2 m c (Proc.devRef .tc main_v28)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨h c main_v28 (mem_ucs _ rfl),
    (h c main_arg0 (mem_ucs _ rfl)).trans (V2_main_arg0 m c),
    (h c main_arg1 (mem_ucs _ rfl)).trans (V2_main_arg1 m c),
    (h c main_arg2 (mem_ucs _ rfl)).trans (V2_main_arg2 m c)⟩) (run_main m ρ)

/-- The frame: the run ends, faults nowhere, and leaves the three argument arrays as launched. -/
theorem frame : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => (h c).2) (run_value m ρ)

end Cert.Kernel.Hand

end
-- ==== Proof.BodyI.lean ====
/-
  The kernel body run once on whole staging buffers.

  One grid point of the kernel reads six input blocks — a block of 256 rows of the row matrix, the whole row matrix,
  the 256 reciprocal row norms of the block as a column, all 4096 reciprocal norms as a row, and the block's and all
  rows' token words laid out the same way — and writes ONE number, the block's partial loss, into every entry of its
  1×8×128 output block.  This module states that as a triple: from the six input buffers at any contents and the
  output buffer at anything, the body ends with the inputs untouched and the output buffer at `outBlk` of the inputs.
-/
import proofs.«171782_j38457137168846_2_alg».proof.Proof.Gen.KernelIdeal.Launch
import proofs.«171782_j38457137168846_2_alg».proof.Proof.Gen.KernelIdeal.Skeleton
import proofs.«171782_j38457137168846_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes: every one is its whole buffer -/

abbrev rX : Rect S256x1024 := Rect.unit (s := S256x1024) ![0, 0] S256x1024.size inb_S256x1024_S256x1024_0_0
abbrev rA : Rect S4096x1024 := Rect.unit (s := S4096x1024) ![0, 0] S4096x1024.size inb_S4096x1024_S4096x1024_0_0
abbrev rC : Rect S256x1 := Rect.unit (s := S256x1) ![0, 0] S256x1.size inb_S256x1_S256x1_0_0
abbrev rR : Rect S1x4096 := Rect.unit (s := S1x4096) ![0, 0] S1x4096.size inb_S1x4096_S1x4096_0_0
abbrev rO : Rect S1x8x128 := Rect.unit (s := S1x8x128) ![0, 0, 0] S1x8x128.size inb_S1x8x128_S1x8x128_0_0_0

/-- What the body leaves in the output block: the block's partial loss (`k0_pay2` of the six loads, summed down the rows
    by `k0_pay1`) written to the whole 1×8×128 buffer. -/
def outBlk (x0 : Vec F S256x1024 .bf16) (x1 : Vec F S4096x1024 .bf16) (x2 : Vec F S256x1 .f32) (x3 : Vec F S1x4096 .f32)
    (x4 : Vec F S256x1 .i32) (x5 : Vec F S1x4096 .i32) : Vec F S1x8x128 .f32 :=
  View.canon [⟨rO, k0_pay1 (k0_pay2 (View.ld x0 rX) (View.ld x1 rA) (View.ld x2 rC) (View.ld x3 rR) (View.ld x4 rC) (View.ld x5 rR))⟩]

/-- The one store covers the output buffer. -/
theorem coverO (p0 : Vec F S1x8x128 .f32) (y : S1x8x128.Idx) :
    ∃ pc ∈ ([⟨rO, p0⟩] : List (View.Piece (Elt F) S1x8x128 .f32)), y ∈ pc.1.set :=
  View.cover_of_tiled [⟨rO, p0⟩] S1x8x128.size (by rfl) y

set_option maxHeartbeats 1000000 in
/-- The body's triple. -/
theorem sound_kernel (c : Dev nD) (E : Set ℕ) (i : grid0.Coords)
    (arg1 : Memref sig .tc .vmem S256x1024 .bf16) (harg1 : arg1.IsWhole) (arg2 : Memref sig .tc .vmem S4096x1024 .bf16) (harg2 : arg2.IsWhole)
    (arg3 : Memref sig .tc .vmem S256x1 .f32) (harg3 : arg3.IsWhole) (arg4 : Memref sig .tc .vmem S1x4096 .f32) (harg4 : arg4.IsWhole)
    (arg5 : Memref sig .tc .vmem S256x1 .i32) (harg5 : arg5.IsWhole) (arg6 : Memref sig .tc .vmem S1x4096 .i32) (harg6 : arg6.IsWhole)
    (arg7 : Memref sig .tc .vmem S1x8x128 .f32) (harg7 : arg7.IsWhole)
    (x0 : Vec F S256x1024 .bf16) (x1 : Vec F S4096x1024 .bf16) (x2 : Vec F S256x1 .f32) (x3 : Vec F S1x4096 .f32)
    (x4 : Vec F S256x1 .i32) (x5 : Vec F S1x4096 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E
          (cc0__loss_kernel i arg1 harg1 arg2 harg2 arg3 harg3 arg4 harg4 arg5 harg5 arg6 harg6 arg7 harg7) K := by
  simp only [cc0__loss_kernel_eq_skeleton]; unfold cc0__loss_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (coverO _)

end Cert.KernelIdeal.Hand

end
-- ==== Proof.DataI.lean ====
/-
  The proof data of the kernel's one pipeline, and the body obligation at every grid point.

  Grid point t (of 16) is handed rows 256·t … 256·t+255 of the row matrix, of the reciprocal norms and of the token
  words, together with the whole row matrix and the whole rows of reciprocal norms and token words; it leaves every
  input block as it found it and the output block at `outBlk` of the six.  The row matrix reaches the kernel through
  TWO windows (the row block and the whole matrix): each is lent half of the array's share.
-/
import proofs.«171782_j38457137168846_2_alg».proof.Proof.BodyI
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The core's buffers as launched, as a valuation, -/
abbrev V₀ (c : Dev nD) : Valuation τ sig (Elt F) := fun b => m (c, b)
/-- and when the kernel region is entered: the thirty host operations before it have run. -/
def V0 (c : Dev nD) : Valuation τ sig (Elt F) := StableHlo.after hostOps0 (V₀ m c)
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: the arrays as the region finds them; after the body each input's buffer at its block and the
    output's at `outBlk` of the six input blocks; the invariant is the scoped buffers no window stages; the two windows
    on the row matrix hold the two halves of its share; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.scopedRest spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBlk (iblk m c 0 t) (iblk m c 1 t) (iblk m c 2 t) (iblk m c 3 t) (iblk m c 4 t) (iblk m c 5 t) := by dsimp only [dats]

/-! Each input's current staging buffer holds its block at every point, fetched there or not (the three whole-array
    windows are fetched once; their block never moves). -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunI.lean ====
/-
  The run of @main: thirty host operations, the kernel region, six host operations.

  The launch is the library's theorem for a @main that is a list of segments.  Between segments the core holds every
  unscoped buffer whole at a valuation.  At the region's entry the buffers behind the windows' arrays are sorted out of
  that set; the row matrix, which two windows read, is lent to each at half its share, and the halves are joined again
  at the exit, where the output array's buffer holds what the sixteen write-backs left.  The conclusion names every
  unscoped buffer's final contents as a term of the launch memory.
-/
import proofs.«171782_j38457137168846_2_alg».proof.Proof.DataI
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The windows' arrays, one by one, at their shares -/

/-- The pipeline's arrays at contents `G`: the row matrix twice, at the two halves of its share, and the five other
    arrays whole. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_v14) ↦{fullShare.left} G 0) ∗ (((c : Thread nD τ).loc main_v14) ↦{fullShare.right} G 1)
          ∗ (((c : Thread nD τ).loc main_v20) ↦{fullShare} G 2) ∗ (((c : Thread nD τ).loc main_v21) ↦{fullShare} G 3)
          ∗ (((c : Thread nD τ).loc main_v22) ↦{fullShare} G 4) ∗ (((c : Thread nD τ).loc main_v23) ↦{fullShare} G 5)
          ∗ (((c : Thread nD τ).loc main_v24) ↦{fullShare} G 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ]
  rfl

/-- The buffers behind the arrays, listed. -/
theorem arrBufs_list (c : Dev nD) (W : (b : Ref sig .tc) → Buf (Elt F) ((c : Thread nD τ).loc b)) :
    (Pipeline.arrBufs spec0 c W : sProp 𝕄)
      = iprop((((c : Thread nD τ).loc main_v14) ↦{fullShare} W main_v14) ∗ (((c : Thread nD τ).loc main_v20) ↦{fullShare} W main_v20)
          ∗ (((c : Thread nD τ).loc main_v21) ↦{fullShare} W main_v21) ∗ (((c : Thread nD τ).loc main_v22) ↦{fullShare} W main_v22)
          ∗ (((c : Thread nD τ).loc main_v23) ↦{fullShare} W main_v23) ∗ (((c : Thread nD τ).loc main_v24) ↦{fullShare} W main_v24)) := by
  unfold Pipeline.arrBufs
  rw [bigSep_eq_bigSepL_of_eq [main_v14, main_v20, main_v21, main_v22, main_v23, main_v24] (by decide) (by decide)]
  rfl

/-! ## Entering and leaving the region -/

/-- At the entry the six buffers behind the arrays, whole at the entry contents, make the pipeline's arrays: the row
    matrix's points-to is halved between the two windows that read it. -/
theorem arrays_of_arrBufs (c : Dev nD) :
    (Pipeline.arrBufs spec0 c (V m c) : sProp 𝕄) ⊢ (dats m 0 c).arrays ((dats m 0 c).arrAt · 0) := by
  rw [arrays_list, arrBufs_list]
  iintro ⟨H14, H20, H21, H22, H23, H24⟩
  ihave H := (pointsTo_share (PosShare.mem_left_op_right fullShare)).1 $$ H14
  icases H with ⟨Hl, Hr⟩
  isplitl [Hl]; · iexact Hl
  isplitl [Hr]; · iexact Hr
  isplitl [H20]; · iexact H20
  isplitl [H21]; · iexact H21
  isplitl [H22]; · iexact H22
  isplitl [H23]; · iexact H23
  iexact H24

/-- The output array once every grid point's block has been written back. -/
def outArr (c : Dev nD) : Buf (Elt F) ((c : Thread nD τ).loc main_v24) := (dats m 0 c).arrAt 6 cfg0.N

/-- The core's buffers when the region is left: the output array's buffer at `outArr`, every other as at the entry. -/
abbrev V1 (c : Dev nD) : Valuation τ sig (Elt F) := (StableHlo.nullary main_v24 (outArr m c)).result (V0 m c)
/-- And at the end: the six host operations after the region have run. -/
abbrev V2 (c : Dev nD) : Valuation τ sig (Elt F) := StableHlo.after hostOps1 (V1 m c)

theorem V1_out (c : Dev nD) : V1 m c (Proc.devRef .tc main_v24) = outArr m c := StableHlo.nullary_result _ _ _ _
theorem V1_ne (c : Dev nD) {r : Ref sig .tc} (h : r ≠ main_v24) : V1 m c (Proc.devRef .tc r) = V0 m c (Proc.devRef .tc r) :=
  StableHlo.nullary_result_ne _ _ _ _ h

set_option maxHeartbeats 2000000 in
/-- At the exit the arrays, the inputs' unchanged and the output's at `outArr`, are the six buffers at the exit contents:
    the two halves of the row matrix's share are joined. -/
theorem arrBufs_of_arrays (c : Dev nD) :
    ((dats m 0 c).arrays ((dats m 0 c).arrAt · cfg0.N) : sProp 𝕄) ⊢ Pipeline.arrBufs spec0 c (fun b => V1 m c (Proc.devRef .tc b)) := by
  rw [arrays_list, arrBufs_list]
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl]
  rw [show (dats m 0 c).A 0 = V0 m c (Proc.devRef .tc main_v14) from rfl, show (dats m 0 c).A 1 = V0 m c (Proc.devRef .tc main_v14) from rfl,
    show (dats m 0 c).A 2 = V0 m c (Proc.devRef .tc main_v20) from rfl, show (dats m 0 c).A 3 = V0 m c (Proc.devRef .tc main_v21) from rfl,
    show (dats m 0 c).A 4 = V0 m c (Proc.devRef .tc main_v22) from rfl, show (dats m 0 c).A 5 = V0 m c (Proc.devRef .tc main_v23) from rfl,
    show (dats m 0 c).arrAt 6 cfg0.N = outArr m c from rfl]
  beta_reduce
  rw [V1_out, V1_ne m c (by decide : main_v14 ≠ main_v24), V1_ne m c (by decide : main_v20 ≠ main_v24),
    V1_ne m c (by decide : main_v21 ≠ main_v24), V1_ne m c (by decide : main_v22 ≠ main_v24), V1_ne m c (by decide : main_v23 ≠ main_v24)]
  iintro ⟨Hl, Hr, H20, H21, H22, H23, H24⟩
  isplitl [Hl Hr]
  · iapply (pointsTo_share (PosShare.mem_left_op_right fullShare)).2
    isplitl [Hl]; · iexact Hl
    iexact Hr
  isplitl [H20]; · iexact H20
  isplitl [H21]; · iexact H21
  isplitl [H22]; · iexact H22
  isplitl [H23]; · iexact H23
  iexact H24

/-- The buffers no window stages hold at the exit what they held at the entry. -/
theorem unscopedRest_V1 (c : Dev nD) :
    (Pipeline.unscopedRest spec0 c (fun b => V1 m c (Proc.devRef .tc b)) : sProp 𝕄) = Pipeline.unscopedRest spec0 c (V m c) := by
  unfold Pipeline.unscopedRest
  refine bigSep_congr fun b hb => ?_
  beta_reduce
  rw [V1_ne m c (fun h => (Finset.mem_sdiff.mp hb).2 (Finset.mem_image.mpr ⟨6, Finset.mem_univ _, h.symm⟩))]

/-! ## The segments and the launch -/

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the whole user component. -/
abbrev EP : Emb (UR sig nD τ) (MT nD τ sig Unit (Elt F) ℕ (UR sig nD τ) ℕ) := emb₁
/-- What rides beside the buffers through the host operations: the core owes nothing. -/
abbrev R (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The thirty host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The six after it, from the exit contents. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (V1 m) R

set_option backward.isDefEq.respectTransparency.types false in
/-- The region: entered from the unscoped buffers at the entry contents, left with them at the exit contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c)]
    iintro ⟨⟨⟨Ha, Hz⟩, HO⟩, -, -⟩
    ihave Ha' := (arrays_of_arrBufs m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = Pipeline.scopedRest spec0 c from rfl]
    iintro ⟨-, -, Hr⟩; iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [show StableHlo.held (c : Thread nD τ) (Pipeline.ucRefs τ sig) (V1 m c) = unscopedBufs c (fun b => V1 m c (Proc.devRef .tc b)) from (Pipeline.unscopedBufs_held c _).symm,
      Pipeline.unscopedBufs_split₀ cfgs 0 winFacts₀0.arr_unscoped c _, unscopedRest_V1]
    iintro ⟨Ha, HO, -, HZ⟩
    ihave Ha' := (arrBufs_of_arrays m c) $$ Ha
    imodintro
    isplitr [HO]
    · isplitl [Ha']; · iexact Ha'
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The launch element: the pipeline library's at the staging cells. -/
def u₀ : UR sig nD τ := initOf (Pipeline.cells cfgs cellOf_inj) (Pipeline.launchToks cfgs cellOf_inj)

/-- The unscoped references of the TensorCore. -/
abbrev ucs : Finset (Ref sig .tc) := Finset.univ.filter fun b : Ref sig .tc => ¬ b.isScoped

/-- The physical post: every unscoped buffer ends at the exit contents carried through the six last operations. -/
def QC : PUnit × MemSt nD τ sig (Elt F) → Prop := fun r =>
  ∀ c : Dev nD, ∀ b ∈ ucs, r.2.mem ((c : Thread nD τ).loc b) = V2 m c (Proc.devRef .tc b)

set_option backward.isDefEq.respectTransparency.types false in
/-- At the compiled mesh, from any memory with zero counters: every weakly fair execution of @main on the TensorCores
    terminates, nothing faulting, and every unscoped buffer ends at `V2`. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (EP (initOf (Pipeline.cells (Pipeline.pin (pcfgs (F := F)) adm) cellOf_inj)
          (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (V2 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ ucs, s.mem ((c : Thread nD τ).loc b) = V2 m c (Proc.devRef .tc b))
    (hfin := fun c s' => by
      rw [show StableHlo.held (c : Thread nD τ) (Pipeline.ucRefs τ sig) (V2 m c) = unscopedBufs c (fun b => V2 m c (Proc.devRef .tc b)) from (Pipeline.unscopedBufs_held c _).symm]
      unfold unscopedBufs
      iintro ⟨HU, HSI⟩
      imodintro
      iapply (pointsTo_read_all ucs (fun b => (c : Thread nD τ).loc b) (fun b => V2 m c (Proc.devRef .tc b)) s')
      isplitl [HU] <;> iassumption)
    (hQ := fun _ h => h)

/-- info: 'Cert.KernelIdeal.Hand.run_main' depends on axioms: [propext, Classical.choice, Quot.sound] -/
#guard_msgs in #print axioms run_main

/-! ## The arguments end as launched -/

theorem V2_main_arg0 (c : Dev nD) : V2 m c (Proc.devRef .tc main_arg0) = m ((c : Thread nD τ).loc main_arg0) := by
  unfold V2
  rw [StableHlo.after_of_forall_not_mem (b := Proc.devRef .tc main_arg0) hostOps1 _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    V1_ne m c (by decide : main_arg0 ≠ main_v24)]
  unfold V0
  exact StableHlo.after_of_forall_not_mem (b := Proc.devRef .tc main_arg0) hostOps0 _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V2_main_arg1 (c : Dev nD) : V2 m c (Proc.devRef .tc main_arg1) = m ((c : Thread nD τ).loc main_arg1) := by
  unfold V2
  rw [StableHlo.after_of_forall_not_mem (b := Proc.devRef .tc main_arg1) hostOps1 _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    V1_ne m c (by decide : main_arg1 ≠ main_v24)]
  unfold V0
  exact StableHlo.after_of_forall_not_mem (b := Proc.devRef .tc main_arg1) hostOps0 _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V2_main_arg2 (c : Dev nD) : V2 m c (Proc.devRef .tc main_arg2) = m ((c : Thread nD τ).loc main_arg2) := by
  unfold V2
  rw [StableHlo.after_of_forall_not_mem (b := Proc.devRef .tc main_arg2) hostOps1 _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    V1_ne m c (by decide : main_arg2 ≠ main_v24)]
  unfold V0
  exact StableHlo.after_of_forall_not_mem (b := Proc.devRef .tc main_arg2) hostOps0 _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem mem_ucs (b : Ref sig .tc) (h : b.isScoped = false) : b ∈ ucs :=
  Finset.mem_filter.mpr ⟨Finset.mem_univ _, by rw [h]; exact Bool.false_ne_true⟩

/-- The run with the result buffer and the three argument arrays read off: the result at the exit contents carried
    through the last six operations, the arguments as launched. -/
theorem run_value : θ_run defs (onTc (τ := τ) (main (F := F))) ⟨m, fun _ => 0, ρ⟩ (fun r => ∀ c : Dev nD,
      r.2.mem ((c : Thread nD τ).loc main_v28) = V2 m c (Proc.devRef .tc main_v28)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨h c main_v28 (mem_ucs _ rfl),
    (h c main_arg0 (mem_ucs _ rfl)).trans (V2_main_arg0 m c),
    (h c main_arg1 (mem_ucs _ rfl)).trans (V2_main_arg1 m c),
    (h c main_arg2 (mem_ucs _ rfl)).trans (V2_main_arg2 m c)⟩) (run_main m ρ)

/-- The frame: the run ends, faults nowhere, and leaves the three argument arrays as launched. -/
theorem frame : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => (h c).2) (run_value m ρ)

end Cert.KernelIdeal.Hand

end
-- ==== Proof.OutI.lean ====
/-
  The kernel side read back: each input block at an index of its array, the output array after the sixteen
  write-backs, and the run's result as the host's last six operations leave it.

  Grid point t reads rows 256·t … 256·t+255 of the row matrix, of the column of reciprocal norms and of the column of
  token words, together with the three whole arrays; it writes its partial loss to every entry of block (t, 0, 0) of
  the 16×8×128 output array.  The host then takes entry (t, 0, 0) of every block, adds the sixteen from zero and divides by 2^24.
-/
import proofs.«171782_j38457137168846_2_alg».proof.Proof.RunI
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Out

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (c : Dev nD)

/-- The grid has sixteen points. -/
theorem hN : cfg0.N = 16 := N_0

/-- The printed index maps, decided over the grid: the three row-block windows and the output sit at block (t, 0[, 0]);
    the three whole-array windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- Row p of block t is a row of the array. -/
theorem row_lt (t : Fin cfg0.N) (p : Fin 256) : t.val * 256 + p.val < 4096 := by
  have h : t.val < 16 := hN ▸ t.isLt
  have hp := p.isLt
  omega

/-- Row p of block t, as a row number of the array. -/
abbrev rowOf (t : Fin cfg0.N) (p : Fin 256) : Fin 4096 := ⟨t.val * 256 + p.val, row_lt t p⟩

/-! ## Each input block read at an index -/

/-- The row block of the row matrix: row p of block t is row 256·t + p. -/
theorem iblk0_apply (t : Fin cfg0.N) (p : Fin 256) (k : Fin 1024) :
    (iblk m c 0 t : S256x1024.Idx → Elt Ideal .bf16) (ix2 p k) = V m c main_v14 (ix2 (rowOf t p) k) := by
  unfold iblk
  rw [View.read_apply]
  show V m c main_v14 (((cfg0.win 0).blk t).view.emb (ix2 p k)) = _
  refine congrArg (V m c main_v14) ?_
  obtain ⟨e0, e1, -⟩ := idx_facts t
  funext a; apply Fin.ext
  match a with
  | ⟨0, _⟩ => show win0_0.index t (0 : Fin 2) * 256 + 1 * p.val = t.val * 256 + p.val; omega
  | ⟨1, _⟩ => show win0_0.index t (1 : Fin 2) * 1024 + 1 * k.val = k.val; omega

/-- The whole row matrix. -/
theorem iblk1_apply (t : Fin cfg0.N) (j : Fin 4096) (k : Fin 1024) :
    (iblk m c 1 t : S4096x1024.Idx → Elt Ideal .bf16) (ix2 j k) = V m c main_v14 (ix2 j k) := by
  unfold iblk
  rw [View.read_apply]
  show V m c main_v14 (((cfg0.win 1).blk t).view.emb (ix2 j k)) = _
  refine congrArg (V m c main_v14) ?_
  obtain ⟨-, -, e0, e1, -⟩ := idx_facts t
  funext a; apply Fin.ext
  match a with
  | ⟨0, _⟩ => show win0_1.index t (0 : Fin 2) * 4096 + 1 * j.val = j.val; omega
  | ⟨1, _⟩ => show win0_1.index t (1 : Fin 2) * 1024 + 1 * k.val = k.val; omega

/-- The block of the column of reciprocal norms. -/
theorem iblk2_apply (t : Fin cfg0.N) (p : Fin 256) :
    (iblk m c 2 t : S256x1.Idx → Elt Ideal .f32) (ix2 p (0 : Fin 1)) = V m c main_v20 (ix2 (rowOf t p) (0 : Fin 1)) := by
  unfold iblk
  rw [View.read_apply]
  show V m c main_v20 (((cfg0.win 2).blk t).view.emb (ix2 p (0 : Fin 1))) = _
  refine congrArg (V m c main_v20) ?_
  obtain ⟨-, -, -, -, e0, e1, -⟩ := idx_facts t
  funext a; apply Fin.ext
  match a with
  | ⟨0, _⟩ => show win0_2.index t (0 : Fin 2) * 256 + 1 * p.val = t.val * 256 + p.val; omega
  | ⟨1, _⟩ => show win0_2.index t (1 : Fin 2) * 1 + 1 * (0 : Fin 1).val = (0 : Fin 1).val; omega

/-- The whole row of reciprocal norms. -/
theorem iblk3_apply (t : Fin cfg0.N) (j : Fin 4096) :
    (iblk m c 3 t : S1x4096.Idx → Elt Ideal .f32) (ix2 (0 : Fin 1) j) = V m c main_v21 (ix2 (0 : Fin 1) j) := by
  unfold iblk
  rw [View.read_apply]
  show V m c main_v21 (((cfg0.win 3).blk t).view.emb (ix2 (0 : Fin 1) j)) = _
  refine congrArg (V m c main_v21) ?_
  obtain ⟨-, -, -, -, -, -, e0, e1, -⟩ := idx_facts t
  funext a; apply Fin.ext
  match a with
  | ⟨0, _⟩ => show win0_3.index t (0 : Fin 2) * 1 + 1 * (0 : Fin 1).val = (0 : Fin 1).val; omega
  | ⟨1, _⟩ => show win0_3.index t (1 : Fin 2) * 4096 + 1 * j.val = j.val; omega

/-- The block of the column of token words. -/
theorem iblk4_apply (t : Fin cfg0.N) (p : Fin 256) :
    (iblk m c 4 t : S256x1.Idx → Elt Ideal .i32) (ix2 p (0 : Fin 1)) = V m c main_v22 (ix2 (rowOf t p) (0 : Fin 1)) := by
  unfold iblk
  rw [View.read_apply]
  show V m c main_v22 (((cfg0.win 4).blk t).view.emb (ix2 p (0 : Fin 1))) = _
  refine congrArg (V m c main_v22) ?_
  obtain ⟨-, -, -, -, -, -, -, -, e0, e1, -⟩ := idx_facts t
  funext a; apply Fin.ext
  match a with
  | ⟨0, _⟩ => show win0_4.index t (0 : Fin 2) * 256 + 1 * p.val = t.val * 256 + p.val; omega
  | ⟨1, _⟩ => show win0_4.index t (1 : Fin 2) * 1 + 1 * (0 : Fin 1).val = (0 : Fin 1).val; omega

/-- The whole row of token words. -/
theorem iblk5_apply (t : Fin cfg0.N) (j : Fin 4096) :
    (iblk m c 5 t : S1x4096.Idx → Elt Ideal .i32) (ix2 (0 : Fin 1) j) = V m c main_v23 (ix2 (0 : Fin 1) j) := by
  unfold iblk
  rw [View.read_apply]
  show V m c main_v23 (((cfg0.win 5).blk t).view.emb (ix2 (0 : Fin 1) j)) = _
  refine congrArg (V m c main_v23) ?_
  obtain ⟨-, -, -, -, -, -, -, -, -, -, e0, e1, -⟩ := idx_facts t
  funext a; apply Fin.ext
  match a with
  | ⟨0, _⟩ => show win0_5.index t (0 : Fin 2) * 1 + 1 * (0 : Fin 1).val = (0 : Fin 1).val; omega
  | ⟨1, _⟩ => show win0_5.index t (1 : Fin 2) * 4096 + 1 * j.val = j.val; omega

/-! ## The output array after the sixteen write-backs -/

/-- What the body leaves in the output block at point t: the body's result of the six input blocks there. -/
def blkAt (t : Fin cfg0.N) : S1x8x128.Idx → EReal :=
  outBlk (iblk m c 0 t) (iblk m c 1 t) (iblk m c 2 t) (iblk m c 3 t) (iblk m c 4 t) (iblk m c 5 t)

theorem after_6_blkAt (t : Fin cfg0.N) : (dats m 0 c).after 6 t = blkAt m c t := after_6 m c t

/-- The grid point whose block holds an index of the output array: its leading coordinate. -/
def tOf (i : S16x8x128.Idx) : Fin cfg0.N := ⟨(i 0).val, by rw [hN]; exact (i 0).isLt⟩

/-- The output array as one function of the input blocks: at (t, a, b), the body's result at point t read at (0, a, b). -/
def G : S16x8x128.Idx → EReal := fun i => blkAt m c (tOf i) (ix3 (0 : Fin 1) (i 1) (i 2))

/-- An element of the output block at point t sits in the array at (t, ·, ·): its leading coordinate is the point, -/
theorem tOf_emb (t : Fin cfg0.N) (y : ((cfg0.win 6).xblock (cfg0.grid.coords t)).Idx) :
    tOf (((cfg0.win 6).blk t).view.emb y) = t := by
  obtain ⟨-, -, -, -, -, -, -, -, -, -, -, -, e0, e1, e2⟩ := idx_facts t
  have hy0 : (y 0).val < 1 := (y 0).isLt
  apply Fin.ext
  show win0_6.index t (0 : Fin 3) * 1 + 1 * (y 0).val = t.val
  omega

/-- and its two other coordinates are the element's own. -/
theorem ix3_emb (t : Fin cfg0.N) (y : ((cfg0.win 6).xblock (cfg0.grid.coords t)).Idx) :
    (ix3 (0 : Fin 1) ((((cfg0.win 6).blk t).view.emb y) 1) ((((cfg0.win 6).blk t).view.emb y) 2) : S1x8x128.Idx)
      = (cfg0.win 6).xinj (grid0.coords t) y := by
  obtain ⟨-, -, -, -, -, -, -, -, -, -, -, -, e0, e1, e2⟩ := idx_facts t
  have hy0 : (y 0).val < 1 := (y 0).isLt
  funext a; apply Fin.ext
  match a with
  | ⟨0, _⟩ => show (0 : Fin 1).val = (y 0).val; omega
  | ⟨1, _⟩ => show win0_6.index t (1 : Fin 3) * 8 + 1 * (y 1).val = (y 1).val; omega
  | ⟨2, _⟩ => show win0_6.index t (2 : Fin 3) * 128 + 1 * (y 2).val = (y 2).val; omega

/-- G at an element of point t's block is the body's result at point t at that element. -/
theorem G_emb (t : Fin cfg0.N) (y : ((cfg0.win 6).xblock (cfg0.grid.coords t)).Idx) :
    G m c (((cfg0.win 6).blk t).view.emb y) = blkAt m c t ((cfg0.win 6).xinj (grid0.coords t) y) := by
  unfold G
  rw [tOf_emb, ix3_emb]

/-- What point t writes back is block t of G. -/
theorem flushed_eq (t : Fin cfg0.N) :
    (dats m 0 c).flushed 6 t = ((cfg0.win 6).blk t).view.read (Elt Ideal) (G m c) := by
  show (cfg0.win 6).cut (grid0.coords t) ((dats m 0 c).after 6 t) = _
  rw [after_6_blkAt]
  funext y
  rw [View.read_apply, G_emb]
  generalize blkAt m c t = B
  rfl

/-- An index of the output array is in point t's block iff each coordinate is in the block's range on its axis. -/
theorem mem_blk (t : Fin cfg0.N) (i : S16x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v24).slice (win0_6.rect t)).set ↔ _
  rw [View.set_slice_whole, Rect.mem_set_unit]
  exact Iff.rfl

/-- Every index of the output array is in the block of the point of its leading coordinate. -/
theorem cover (i : S16x8x128.Idx) :
    ∃ t : Fin cfg0.N, (cfg0.win 6).flush t = true ∧ i ∈ ((cfg0.win 6).blk t).view.set := by
  refine ⟨tOf i, flush0_6 _, ?_⟩
  rw [mem_blk]
  obtain ⟨-, -, -, -, -, -, -, -, -, -, -, -, e0, e1, e2⟩ := idx_facts (tOf i)
  have h0 : (tOf i).val = (i 0).val := rfl
  have h1 : (i 1).val < 8 := (i 1).isLt
  have h2 : (i 2).val < 128 := (i 2).isLt
  intro a
  match a with
  | ⟨0, _⟩ => show win0_6.index (tOf i) (0 : Fin 3) * 1 ≤ (i 0).val ∧ (i 0).val < win0_6.index (tOf i) (0 : Fin 3) * 1 + 1; omega
  | ⟨1, _⟩ => show win0_6.index (tOf i) (1 : Fin 3) * 8 ≤ (i 1).val ∧ (i 1).val < win0_6.index (tOf i) (1 : Fin 3) * 8 + 8; omega
  | ⟨2, _⟩ => show win0_6.index (tOf i) (2 : Fin 3) * 128 ≤ (i 2).val ∧ (i 2).val < win0_6.index (tOf i) (2 : Fin 3) * 128 + 128; omega

/-- The output array after the run is G. -/
theorem outArr_eq : outArr m c = G m c :=
  (dats m 0 c).arrAt_eq_of_cover 6 (G m c) (fun t _ => flushed_eq m c t) cover

/-- The grid point numbered by a leading coordinate of the output array. -/
abbrev ptOf (t : Fin 16) : Fin cfg0.N := ⟨t.val, by rw [hN]; exact t.isLt⟩

/-- Entry (t, 0, 0) of the output array: the body's result at point t, read at (0, 0, 0). -/
theorem outArr_apply (t : Fin 16) :
    outArr m c (ix3 t (0 : Fin 8) (0 : Fin 128))
      = outBlk (iblk m c 0 (ptOf t)) (iblk m c 1 (ptOf t)) (iblk m c 2 (ptOf t)) (iblk m c 3 (ptOf t))
          (iblk m c 4 (ptOf t)) (iblk m c 5 (ptOf t)) (ix3 (0 : Fin 1) (0 : Fin 8) (0 : Fin 128)) := by
  rw [outArr_eq]
  rfl

/-! ## The result: the host's last six operations on the output array -/

/-- A [16, 1, 1] array cast to [16] reads, at t, the operand at (t, 0, 0). -/
theorem shapeCast_16x1x1_16_apply {α : Type} (x : S16x1x1.Idx → α) (h : S16x1x1.ShapeCasts S16) (t : Fin 16) :
    shapeCast S16 x h (ix1 t) = x (ix3 t (0 : Fin 1) (0 : Fin 1)) :=
  shapeCast_apply x h _ _ (by
    rw [Shape.rowMajor_val_three, Shape.rowMajor_val_one]
    show (t.val * 1 + 0) * 1 + 0 = t.val
    omega)

/-- The slice [0:16, 0:1, 0:1] of a [16, 8, 128] array reads, at (t, 0, 0), the operand at (t, 0, 0). -/
theorem slice_16x1x1_apply {α : Type} (x : S16x8x128.Idx → α) (h : S16x8x128.Slices ![0, 0, 0] S16x1x1) (t : Fin 16) :
    extractStridedSlice S16x1x1 ![0, 0, 0] x h (ix3 t (0 : Fin 1) (0 : Fin 1)) = x (ix3 t (0 : Fin 8) (0 : Fin 128)) :=
  extractStridedSlice_apply _ x h _ _ (fun a => by
    match a with
    | ⟨0, _⟩ => show t.val = 0 + t.val; omega
    | ⟨1, _⟩ => show (0 : Nat) = 0 + 0; rfl
    | ⟨2, _⟩ => show (0 : Nat) = 0 + 0; rfl)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's tail on any output array A: entry (t, 0, 0) of every block, added from zero, divided by 2^24. -/
theorem tail_apply (A : S16x8x128.Idx → EReal) :
    Host.divf (F := Ideal)
        (Host.reduceAdd (F := Ideal)
          (fun i => shapeCast S16 (extractStridedSlice S16x1x1 ![0, 0, 0] A slices_S16x8x128_S16x1x1_0_0_0) shapeCasts_S16x1x1_S16 i)
          (constant (F := Ideal) S_ .f32 0x00000000#32) reducesTo_S16_S_d0 h_S_)
        (constant (F := Ideal) S_ .f32 0x4B800000#32) ix0
      = Ideal.div (Ideal.ofBits .f32 0x00000000#32 + ∑ t : Fin 16, A (ix3 t (0 : Fin 8) (0 : Fin 128)))
          (Ideal.ofBits .f32 0x4B800000#32) := by
  show Ideal.div (Host.reduceAdd (F := Ideal)
      (fun i => shapeCast S16 (extractStridedSlice S16x1x1 ![0, 0, 0] A slices_S16x8x128_S16x1x1_0_0_0) shapeCasts_S16x1x1_S16 i)
      (constant (F := Ideal) S_ .f32 0x00000000#32) reducesTo_S16_S_d0 h_S_ ix0) (Ideal.ofBits .f32 0x4B800000#32) = _
  refine congrArg (Ideal.div · _) ?_
  simp only [Host.reduceAdd, Ideal.hostReduceAdd_def]
  rw [Ideal.hostReduceAdd_total reducesTo_S16_S_d0 (fun b => b.elim0), sum_idx1]
  refine congrArg₂ (· + ·) rfl (Finset.sum_congr rfl fun t _ => ?_)
  rw [shapeCast_16x1x1_16_apply, slice_16x1x1_apply]

/-- The run's result: the sixteen partial losses at entries (t, 0, 0) of the output array, added from zero, divided by 2^24. -/
theorem result_eq :
    (V2 m c (Proc.devRef .tc main_v28) : S_.Idx → EReal) ix0
      = Ideal.div (Ideal.ofBits .f32 0x00000000#32
          + (∑ t : Fin 16, outArr m c (ix3 t (0 : Fin 8) (0 : Fin 128)) : EReal))
          (Ideal.ofBits .f32 0x4B800000#32) := by
  show StableHlo.after hostOps1 (V1 m c) (Proc.devRef .tc main_v28) ix0 = _
  simp only [hostOps1]
  after_results
  rw [V1_out]
  generalize outArr m c = A
  exact tail_apply A

end Cert.KernelIdeal.Out

end
-- ==== Proof.LibColumn.lean ====
/-
  A column of row values, as a sum along the rows that keeps a unit axis lays it out: a vector of `a` values recast as
  an `[a, 1]` column, and such a column broadcast along its unit axis to an `[a, b]` matrix — each read at an index
  given by its coordinates.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.PrefixI.lean ====
/-
  The arrays the kernel region finds: what the host operations before it leave, in terms of the gathered rows and tokens.
-/
import proofs.«171782_j38457137168846_2_alg».proof.Proof.DataI
import proofs.«171782_j38457137168846_2_alg».proof.Proof.Gen.ReferenceIdeal.Read
import proofs.«171782_j38457137168846_2_alg».proof.Proof.LibColumn
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Prefix

open Cert.KernelIdeal Cert.KernelIdeal.Gen Cert.KernelIdeal.Hand
open Idealize.ShloMosaic Idealize.ShloMosaic.TcCoe Idealize.ShloMosaic.Tactic Idealize.ShloMosaic.ValueIdx
open Idealize.SL.Sem

variable (m : (ℓ : Loc nD τ sig) → Buf (Elt Ideal) ℓ) (c : Dev nD)

/-- The matrix of gathered rows, as the reference names it. -/
abbrev X : (⟨S4096x1024, .f32⟩ : BufTy).Contents (Elt Ideal) :=
  Cert.ReferenceIdeal.Read.val_main_v6 (F := Ideal) (m ((c : Thread nD τ).loc main_arg0)) (m ((c : Thread nD τ).loc main_arg2))
/-- The gathered token words, as the reference names them. -/
abbrev T : (⟨S4096, .i32⟩ : BufTy).Contents (Elt Ideal) :=
  Cert.ReferenceIdeal.Read.val_main_v25 (F := Ideal) (m ((c : Thread nD τ).loc main_arg1)) (m ((c : Thread nD τ).loc main_arg2))

/-- The reciprocal row norms the host operations compute from a row matrix: one over the root of zero plus the row's
    sum of squares. -/
def invNorm (Y : (⟨S4096x1024, .f32⟩ : BufTy).Contents (Elt Ideal)) : (⟨S4096, .f32⟩ : BufTy).Contents (Elt Ideal) :=
  Host.divf (F := Ideal) (broadcastInDim S4096 ![] bcast_S_S4096 (constant (F := Ideal) S_ .f32 0x3F800000#32))
    (Host.sqrt (F := Ideal) (Host.reduceAdd (F := Ideal) (mulf (F := Ideal) Y Y) (constant (F := Ideal) S_ .f32 0x00000000#32)
      reducesTo_S4096x1024_S4096_d1 h_S_))

/-- Row `r`'s sum of squares: the host's sum along the second axis is the initial value plus the sum over that axis. -/
theorem rowSum_apply (Y : (⟨S4096x1024, .f32⟩ : BufTy).Contents (Elt Ideal)) (r : Fin 4096) :
    Host.reduceAdd (F := Ideal) (mulf (F := Ideal) Y Y) (constant (F := Ideal) S_ .f32 0x00000000#32)
        reducesTo_S4096x1024_S4096_d1 h_S_ (ix1 r)
      = Ideal.ofBits .f32 0x00000000#32 + ∑ k : Fin 1024, Y (ix2 r k) * Y (ix2 r k) := by
  simp only [Host.reduceAdd, Ideal.hostReduceAdd_def]
  rw [Ideal.hostReduceAdd_single reducesTo_S4096x1024_S4096_d1 (by decide)]
  refine congrArg₂ (· + ·) rfl (Finset.sum_congr rfl fun k _ => ?_)
  exact congrArg (fun i => Y i * Y i)
    (funext fun a => Fin.ext (by match a with | ⟨0, _⟩ => rfl | ⟨1, _⟩ => rfl) : _ = ix2 r k)

/-- The reciprocal norm of row `r`. -/
theorem invNorm_apply (Y : (⟨S4096x1024, .f32⟩ : BufTy).Contents (Elt Ideal)) (r : Fin 4096) :
    invNorm Y (ix1 r) = Ideal.div (Ideal.ofBits .f32 0x3F800000#32)
      (Ideal.sqrt (Ideal.ofBits .f32 0x00000000#32 + ∑ k : Fin 1024, Y (ix2 r k) * Y (ix2 r k))) :=
  congrArg (fun z => Ideal.div (Ideal.ofBits .f32 0x3F800000#32) (Ideal.sqrt z)) (rowSum_apply Y r)

/-! The five arrays the kernel reads, as the host operations' terms. -/

/-- The row matrix converted to the narrower format: at the ideal instance the conversion is the identity. -/
theorem V_v14 : (V m c main_v14 : S4096x1024.Idx → EReal) = X m c := by
  unfold V V0
  after_results
  rfl

theorem V_v20_term : (V m c main_v20 : S4096x1.Idx → EReal) = shapeCast S4096x1 (invNorm (X m c)) shapeCasts_S4096_S4096x1 := by
  unfold V V0
  after_results
  rfl

theorem V_v21_term : (V m c main_v21 : S1x4096.Idx → EReal) = shapeCast S1x4096 (invNorm (X m c)) shapeCasts_S4096_S1x4096 := by
  unfold V V0
  after_results
  rfl

theorem V_v22_term : (V m c main_v22 : S4096x1.Idx → BitVec 32) = shapeCast S4096x1 (T m c) shapeCasts_S4096_S4096x1 := by
  unfold V V0
  after_results
  rfl

theorem V_v23_term : (V m c main_v23 : S1x4096.Idx → BitVec 32) = shapeCast S1x4096 (T m c) shapeCasts_S4096_S1x4096 := by
  unfold V V0
  after_results
  rfl

/-! The same, read at an index. -/

/-- The column of reciprocal norms: entry `(r, 0)` is row `r`'s. -/
theorem V_v20 (r : Fin 4096) : (V m c main_v20 : S4096x1.Idx → EReal) (ix2 r (0 : Fin 1))
    = Ideal.div (Ideal.ofBits .f32 0x3F800000#32)
        (Ideal.sqrt (Ideal.ofBits .f32 0x00000000#32 + ∑ k : Fin 1024, X m c (ix2 r k) * X m c (ix2 r k))) := by
  rw [V_v20_term]
  exact (Cert.LibColumn.shapeCast_a_a1_apply (invNorm (X m c)) shapeCasts_S4096_S4096x1 r 0).trans (invNorm_apply (X m c) r)

/-- The row of reciprocal norms: entry `(0, j)` is row `j`'s. -/
theorem V_v21 (j : Fin 4096) : (V m c main_v21 : S1x4096.Idx → EReal) (ix2 (0 : Fin 1) j)
    = Ideal.div (Ideal.ofBits .f32 0x3F800000#32)
        (Ideal.sqrt (Ideal.ofBits .f32 0x00000000#32 + ∑ k : Fin 1024, X m c (ix2 j k) * X m c (ix2 j k))) := by
  rw [V_v21_term]
  exact (shapeCast_a_1a_apply (invNorm (X m c)) shapeCasts_S4096_S1x4096 0 j).trans (invNorm_apply (X m c) j)

/-- The column of token words. -/
theorem V_v22 (r : Fin 4096) : (V m c main_v22 : S4096x1.Idx → BitVec 32) (ix2 r (0 : Fin 1)) = T m c (ix1 r) := by
  rw [V_v22_term]
  exact Cert.LibColumn.shapeCast_a_a1_apply (T m c) shapeCasts_S4096_S4096x1 r 0

/-- The row of token words. -/
theorem V_v23 (j : Fin 4096) : (V m c main_v23 : S1x4096.Idx → BitVec 32) (ix2 (0 : Fin 1) j) = T m c (ix1 j) := by
  rw [V_v23_term]
  exact shapeCast_a_1a_apply (T m c) shapeCasts_S4096_S1x4096 0 j

end Cert.KernelIdeal.Prefix

end
-- ==== Proof.RefSide.lean ====
/-
  The reference's run read back: its result as a term of the argument arrays.

  With X the gathered rows and T the gathered tokens (both kept as data), every entry of the
  reference's loss matrix is a closed formula in X and T, and the result is the total of the
  entries over the 4096 × 4096 index set, divided by 2^24.
-/
import proofs.«171782_j38457137168846_2_alg».proof.Proof.Gen.ReferenceIdeal.Read
import Idealize.ShloMosaic.Lib.ValueIdx
import Idealize.ShloMosaic.PureOps.Ideal.Laws

noncomputable section

namespace Cert.ReferenceIdeal.RefSide

open Cert.ReferenceIdeal Cert.ReferenceIdeal.Gen Idealize.ShloMosaic Idealize.ShloMosaic.TcCoe Idealize.SL.Sem Idealize.ShloMosaic.StableHlo

/-- The gathered rows, as a matrix of extended reals. -/
abbrev Xof (x0 : (⟨S8192x1024, .f32⟩ : BufTy).Contents (Elt Ideal)) (x2 : (⟨S4096, .i32⟩ : BufTy).Contents (Elt Ideal)) :
    Fin 4096 → Fin 1024 → EReal :=
  fun r k => Read.val_main_v6 (F := Ideal) x0 x2 (ValueIdx.ix2 r k)

/-- The gathered tokens. -/
abbrev Tof (x1 : (⟨S8192, .i32⟩ : BufTy).Contents (Elt Ideal)) (x2 : (⟨S4096, .i32⟩ : BufTy).Contents (Elt Ideal)) :
    Fin 4096 → BitVec 32 :=
  fun r => Read.val_main_v25 (F := Ideal) x1 x2 (ValueIdx.ix1 r)

/-- The float zero as the reference spells it. -/
abbrev zeroW : EReal := Ideal.ofBits .f32 0x00000000#32

/-- The ε of the cosine's denominator as the reference spells it. -/
abbrev epsW : EReal := Ideal.ofBits .f32 0x322BCC77#32

/-- Σ_k X[r,k]². -/
def ssq (X : Fin 4096 → Fin 1024 → EReal) (r : Fin 4096) : EReal :=
  ∑ k : Fin 1024, X r k * X r k

/-- The row norm: sqrt (0 + Σ_k X[r,k]²). -/
def nrm (X : Fin 4096 → Fin 1024 → EReal) (r : Fin 4096) : EReal :=
  Ideal.sqrt (zeroW + ssq X r)

/-- Σ_k X[r,k]·X[j,k]. -/
def dotR (X : Fin 4096 → Fin 1024 → EReal) (r j : Fin 4096) : EReal :=
  ∑ k : Fin 1024, X r k * X j k

/-- The logit: the dot product over max (n_r · n_j, ε). -/
def logitR (X : Fin 4096 → Fin 1024 → EReal) (r j : Fin 4096) : EReal :=
  Ideal.div (dotR X r j) (max (nrm X r * nrm X j) epsW)

/-- The target: 1 where the two tokens agree, else 0, as the unsigned reading of the comparison bit. -/
def tgtR (T : Fin 4096 → BitVec 32) (r j : Fin 4096) : EReal :=
  (((IntOp.cmpi .eq (T r) (T j)).toNat : ℝ) : EReal)

/-- logaddexp(0, z) − z·t, with logaddexp spelled out as the reference prints it. -/
def bceR (z t : EReal) : EReal :=
  Scalar.select (Ideal.cmp .une (zeroW - z) (zeroW - z))
      (zeroW + z)
      (max zeroW z + Ideal.log1p (Ideal.exp (-(max (zeroW - z) (-(zeroW - z))))))
    - z * t

/-- One entry of the loss matrix. -/
def entryR (X : Fin 4096 → Fin 1024 → EReal) (T : Fin 4096 → BitVec 32) (r j : Fin 4096) : EReal :=
  bceR (logitR X r j) (tgtR T r j)

variable (x0 : (⟨S8192x1024, .f32⟩ : BufTy).Contents (Elt Ideal))
  (x1 : (⟨S8192, .i32⟩ : BufTy).Contents (Elt Ideal))
  (x2 : (⟨S4096, .i32⟩ : BufTy).Contents (Elt Ideal))

/-! The index maps of the layout operations, as indices built from coordinates. -/

theorem idx8_eq (i : S4096.Idx) (k : Fin 1024) : Read.idx_main_v8 i k = ValueIdx.ix2 (i 0) k :=
  funext fun a => by match a with | ⟨0, _⟩ => rfl | ⟨1, _⟩ => rfl

theorem lidx10_eq (q : S4096x4096.Idx) (k : Fin 1024) : Read.lidx_main_v10 q k = ValueIdx.ix2 (q 0) k :=
  funext fun a => by match a with | ⟨0, _⟩ => rfl | ⟨1, _⟩ => rfl

theorem ridx10_eq (q : S4096x4096.Idx) (k : Fin 1024) : Read.ridx_main_v10 q k = ValueIdx.ix2 (q 1) k :=
  funext fun a => by match a with | ⟨0, _⟩ => rfl | ⟨1, _⟩ => rfl

/-- The norm vector read at a row. -/
theorem nrm_value (i : S4096.Idx) :
    Read.val_main_v9 (F := Ideal) x0 x2 i = nrm (Xof x0 x2) (i 0) := by
  rw [Read.val_main_v9_apply, Read.val_main_v8_apply, Read.val_main_cst_apply]
  simp only [Read.val_main_v7_apply, idx8_eq, Ideal.mulf_def, Ideal.hostUnary_sqrt_def, Ideal.ofBits_def]
  rfl

/-- The matrix of dot products read at an entry. -/
theorem dot_value (q : S4096x4096.Idx) :
    Read.val_main_v10 (F := Ideal) x0 x2 q = dotR (Xof x0 x2) (q 0) (q 1) := by
  rw [Read.val_main_v10_apply]
  simp only [lidx10_eq, ridx10_eq]
  rfl

/-- The logit matrix read at an entry. -/
theorem logit_value (q : S4096x4096.Idx) :
    Read.val_main_v18 (F := Ideal) x0 x2 q = logitR (Xof x0 x2) (q 0) (q 1) := by
  rw [Read.val_main_v18_apply, Read.val_main_v17_apply, Read.val_main_v15_apply, Read.val_main_v13_apply,
    Read.val_main_v14_apply, Read.val_main_v11_apply, Read.val_main_v12_apply, Read.val_main_v16_apply,
    Read.val_main_cst_1_apply, dot_value, nrm_value, nrm_value]
  simp only [Ideal.mulf_def, Ideal.hostDivf_def, Ideal.maximumf_def, Ideal.ofBits_def]
  rfl

theorem idx26_28_eq (q : S4096x4096.Idx) : Read.idx_main_v26 (Read.idx_main_v28 q) = ValueIdx.ix1 (q 0) :=
  funext fun a => by match a with | ⟨0, _⟩ => rfl

theorem idx27_29_eq (q : S4096x4096.Idx) : Read.idx_main_v27 (Read.idx_main_v29 q) = ValueIdx.ix1 (q 1) :=
  funext fun a => by match a with | ⟨0, _⟩ => rfl

/-- The target matrix read at an entry. -/
theorem tgt_value (q : S4096x4096.Idx) :
    Read.val_main_v31 (F := Ideal) x1 x2 q = tgtR (Tof x1 x2) (q 0) (q 1) := by
  rw [Read.val_main_v31_apply, Read.val_main_v30_apply, Read.val_main_v28_apply, Read.val_main_v29_apply,
    Read.val_main_v26_apply, Read.val_main_v27_apply, idx26_28_eq, idx27_29_eq]
  rfl

/-- The loss matrix read at an entry. -/
theorem entry_value (q : S4096x4096.Idx) :
    Read.val_main_v46 (F := Ideal) x0 x1 x2 q = entryR (Xof x0 x2) (Tof x1 x2) (q 0) (q 1) := by
  rw [Read.val_main_v46_apply, Read.val_main_v44_apply, Read.val_main_v45_apply, Read.val_main_v36_apply,
    Read.val_main_v38_apply, Read.val_main_v43_apply, Read.val_main_v33_apply, Read.val_main_v42_apply,
    Read.val_main_v41_apply, Read.val_main_v40_apply, Read.val_main_v39_apply, Read.val_main_v35_apply,
    Read.val_main_v32_apply, Read.val_main_v34_apply, Read.val_main_v37_apply, Read.val_main_cst_4_apply,
    logit_value, tgt_value]
  simp only [Ideal.mulf_def, Ideal.addf_def, Ideal.subf_def, Ideal.maximumf_def, Ideal.ofBits_def,
    Ideal.hostUnary_exp_def, Ideal.hostUnary_log1p_def, Ideal.hostNegf_def, Ideal.hostAbsf_def, Ideal.negf_def,
    Ideal.absf_def, Ideal.cmpf_def]
  rfl

/-- The reference's result: the total of the loss entries over the whole index set, from the float zero, divided by
    2^24 (the word 0x4B800000). -/
theorem ref_value (i : S_.Idx) :
    Read.val_main_v48 (F := Ideal) x0 x1 x2 i
      = Ideal.div (zeroW + ∑ q : S4096x4096.Idx, entryR (Xof x0 x2) (Tof x1 x2) (q 0) (q 1))
          (Ideal.ofBits .f32 0x4B800000#32) := by
  rw [Read.val_main_v48_apply, Read.val_main_v47_apply, Read.val_main_cst_5_apply, Read.val_main_cst_6_apply]
  simp only [entry_value, Ideal.hostDivf_def, Ideal.ofBits_def]

end Cert.ReferenceIdeal.RefSide

end
-- ==== Proof.PayI.lean ====
/-
  One grid point's arithmetic at the ideal values, read entry by entry.

  The body forms, for each of the block's 256 rows p and each of the 4096 rows j, the dot product of row p of the block
  with row j of the whole matrix, scales it by min(uₚ·wⱼ, c) — uₚ and wⱼ the precomputed reciprocal norms, c the
  kernel's constant —, turns the logit into a binary cross-entropy entry against the equality of two token words, sums
  the entries along j and then along p, and splats the one number over the output block.
-/
import proofs.«171782_j38457137168846_2_alg».proof.Proof.Gen.KernelIdeal.Skeleton
import proofs.«171782_j38457137168846_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The kernel's constant, as the ideal instance reads it. -/
abbrev cst : EReal := Named.named (F := Ideal) κ "inv_eps" (φ := .f32) 0x4CBEBC20#32
/-- The zero word. -/
abbrev z0 : EReal := Ideal.ofBits .f32 0x00000000#32

/-- One entry of the loss from the dot product `d`, the product `s` of the two reciprocal norms and the two token words. -/
def entG (d s : EReal) (a b : BitVec 32) : EReal :=
  Scalar.select (FloatOps.cmpf (F := Ideal) (φ := .f32) .one (z0 - d * min s cst) (z0 - d * min s cst)) (z0 + d * min s cst)
      (max z0 (d * min s cst) + FloatOps.log1p (F := Ideal) (φ := .f32) (FloatOps.exp (F := Ideal) (φ := .f32) (z0 - FloatOps.absf (F := Ideal) (φ := .f32) (z0 - d * min s cst))))
    - d * min s cst * FloatOps.sitofp (F := Ideal) .f32 ((IntOp.cmpi .eq a b).setWidth 32)

/-- The row payload is the row sums of the entries, kept as a column. -/
theorem pay2_eq (v0 : FVec Ideal S256x1024 .bf16) (v2 : FVec Ideal S4096x1024 .bf16) (v5 : FVec Ideal S256x1 .f32) (v7 : FVec Ideal S1x4096 .f32)
    (v15 : IVec S256x1 32) (v17 : IVec S1x4096 32) :
    k0_pay2 (F := Ideal) v0 v2 v5 v7 v15 v17
      = shapeCast S256x1 (multiReduction (F := Ideal) .add [1] S256 (fun i => entG
          (matmul (F := Ideal) dot_S256x1024_S4096x1024_S256x4096_1_1_0_0_n_n none (shapeCast S256x1024 v0 Facts₀.shapeCasts_S256x1024_S256x1024) (shapeCast S4096x1024 v2 Facts₀.shapeCasts_S4096x1024_S4096x1024) (constant (F := Ideal) S256x4096 .f32 0x00000000#32) i)
          (broadcastTo S256x4096 (shapeCast S256x1 v5 Facts₀.shapeCasts_S256x1_S256x1) Facts₀.broadcasts_S256x1_S256x4096 i
            * broadcastTo S256x4096 (shapeCast S1x4096 v7 Facts₀.shapeCasts_S1x4096_S1x4096) Facts₀.broadcasts_S1x4096_S256x4096 i)
          (broadcastTo S256x4096 (shapeCast S256x1 v15 Facts₀.shapeCasts_S256x1_S256x1) Facts₀.broadcasts_S256x1_S256x4096 i)
          (broadcastTo S256x4096 (shapeCast S1x4096 v17 Facts₀.shapeCasts_S1x4096_S1x4096) Facts₀.broadcasts_S1x4096_S256x4096 i))
        0x00000000#32 Facts₀.reduces_S256x4096_S256 (.inl rfl) rfl) Facts₀.shapeCasts_S256_S256x1 := rfl

/-! ## The matrix product read at an index -/

theorem lhs0 (i : S256x4096.Idx) (q : dot_S256x1024_S4096x1024_S256x4096_1_1_0_0_n_n.contr.Idx) : (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
theorem lhs1 (i : S256x4096.Idx) (q : dot_S256x1024_S4096x1024_S256x4096_1_1_0_0_n_n.contr.Idx) : (dot_S256x1024_S4096x1024_S256x4096_1_1_0_0_n_n.lhsIdx i q 1).val = (q ⟨0, by decide⟩).val :=
  dot_S256x1024_S4096x1024_S256x4096_1_1_0_0_n_n.lhsIdx_val_of_single rfl i q
theorem rhs0 (i : S256x4096.Idx) (q : dot_S256x1024_S4096x1024_S256x4096_1_1_0_0_n_n.contr.Idx) : (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
theorem rhs1 (i : S256x4096.Idx) (q : dot_S256x1024_S4096x1024_S256x4096_1_1_0_0_n_n.contr.Idx) : (dot_S256x1024_S4096x1024_S256x4096_1_1_0_0_n_n.rhsIdx i q 1).val = (q ⟨0, by decide⟩).val :=
  dot_S256x1024_S4096x1024_S256x4096_1_1_0_0_n_n.rhsIdx_val_of_single rfl i q

/-- Entry (p, j) of the product of the block with the transposed whole matrix, accumulated into zero: the dot product of
    row p of the block and row j of the matrix. -/
theorem mm_apply (a : FVec Ideal S256x1024 .bf16) (b : FVec Ideal S4096x1024 .bf16) (p : Fin 256) (j : Fin 4096) :
    matmul (F := Ideal) dot_S256x1024_S4096x1024_S256x4096_1_1_0_0_n_n none a b (constant (F := Ideal) S256x4096 .f32 0x00000000#32) (ix2 p j)
      = ∑ k : Fin 1024, a (ix2 p k) * b (ix2 j k) := by
  refine (Ideal.matmul_constant_zero_apply dot_S256x1024_S4096x1024_S256x4096_1_1_0_0_n_n none a b (ix2 p j)).trans ?_
  rw [← Equiv.sum_comp (ValueIdx.contrEquiv1 dot_S256x1024_S4096x1024_S256x4096_1_1_0_0_n_n 1024 rfl rfl).symm]
  refine Finset.sum_congr rfl fun k _ => ?_
  have hk := ValueIdx.contrEquiv1_symm_val dot_S256x1024_S4096x1024_S256x4096_1_1_0_0_n_n 1024 rfl rfl k
  have el : dot_S256x1024_S4096x1024_S256x4096_1_1_0_0_n_n.lhsIdx (ix2 p j) ((ValueIdx.contrEquiv1 dot_S256x1024_S4096x1024_S256x4096_1_1_0_0_n_n 1024 rfl rfl).symm k) = ix2 p k := funext fun ax => Fin.ext (by
    match ax with
    | ⟨0, _⟩ => exact lhs0 _ _
    | ⟨1, _⟩ => exact (lhs1 _ _).trans hk)
  have er : dot_S256x1024_S4096x1024_S256x4096_1_1_0_0_n_n.rhsIdx (ix2 p j) ((ValueIdx.contrEquiv1 dot_S256x1024_S4096x1024_S256x4096_1_1_0_0_n_n 1024 rfl rfl).symm k) = ix2 j k := funext fun ax => Fin.ext (by
    match ax with
    | ⟨0, _⟩ => exact rhs0 _ _
    | ⟨1, _⟩ => exact (rhs1 _ _).trans hk)
  rw [el, er]

/-! ## The two payloads read at an index -/

/-- Row p of the row payload: the sum over j of the entries of row p. -/
theorem pay2_apply (v0 : FVec Ideal S256x1024 .bf16) (v2 : FVec Ideal S4096x1024 .bf16) (v5 : FVec Ideal S256x1 .f32) (v7 : FVec Ideal S1x4096 .f32)
    (v15 : IVec S256x1 32) (v17 : IVec S1x4096 32) (p : Fin 256) :
    k0_pay2 (F := Ideal) v0 v2 v5 v7 v15 v17 (ix2 p (0 : Fin 1))
      = ∑ j : Fin 4096, entG (∑ k : Fin 1024, v0 (ix2 p k) * v2 (ix2 j k)) (v5 (ix2 p (0 : Fin 1)) * v7 (ix2 (0 : Fin 1) j))
          (v15 (ix2 p (0 : Fin 1))) (v17 (ix2 (0 : Fin 1) j)) := by
  rw [pay2_eq]
  refine (Cert.LibColumn.shapeCast_a_a1_apply _ Facts₀.shapeCasts_S256_S256x1 p 0).trans ?_
  refine (Ideal.multiReduction_add_single _ 0x00000000#32 Facts₀.reduces_S256x4096_S256 (.inl rfl) rfl (ix1 p)).trans ?_
  refine Finset.sum_congr rfl fun (j : Fin 4096) _ => ?_
  have hl : Facts₀.reduces_S256x4096_S256.lift (ix1 p) j = ix2 p j :=
    funext fun ax => Fin.ext (by match ax with | ⟨0, _⟩ => rfl | ⟨1, _⟩ => rfl)
  have hA : matmul (F := Ideal) dot_S256x1024_S4096x1024_S256x4096_1_1_0_0_n_n none (shapeCast S256x1024 v0 Facts₀.shapeCasts_S256x1024_S256x1024) (shapeCast S4096x1024 v2 Facts₀.shapeCasts_S4096x1024_S4096x1024)
      (constant (F := Ideal) S256x4096 .f32 0x00000000#32) (ix2 p j) = ∑ k : Fin 1024, v0 (ix2 p k) * v2 (ix2 j k) := by
    rw [shapeCast_self, shapeCast_self]; exact mm_apply v0 v2 p j
  have hB : broadcastTo S256x4096 (shapeCast S256x1 v5 Facts₀.shapeCasts_S256x1_S256x1) Facts₀.broadcasts_S256x1_S256x4096 (ix2 p j) = v5 (ix2 p (0 : Fin 1)) := by
    rw [shapeCast_self]; exact Cert.LibColumn.broadcastTo_a1_ab_apply v5 _ p j
  have hC : broadcastTo S256x4096 (shapeCast S1x4096 v7 Facts₀.shapeCasts_S1x4096_S1x4096) Facts₀.broadcasts_S1x4096_S256x4096 (ix2 p j) = v7 (ix2 (0 : Fin 1) j) := by
    rw [shapeCast_self]; exact broadcastTo_1b_ab_apply v7 _ p j
  have hD : broadcastTo S256x4096 (shapeCast S256x1 v15 Facts₀.shapeCasts_S256x1_S256x1) Facts₀.broadcasts_S256x1_S256x4096 (ix2 p j) = v15 (ix2 p (0 : Fin 1)) := by
    rw [shapeCast_self]; exact Cert.LibColumn.broadcastTo_a1_ab_apply v15 _ p j
  have hE : broadcastTo S256x4096 (shapeCast S1x4096 v17 Facts₀.shapeCasts_S1x4096_S1x4096) Facts₀.broadcasts_S1x4096_S256x4096 (ix2 p j) = v17 (ix2 (0 : Fin 1) j) := by
    rw [shapeCast_self]; exact broadcastTo_1b_ab_apply v17 _ p j
  rw [hl]
  show entG _ _ _ _ = _
  rw [hA, hB, hC, hD, hE]

/-- Every entry of the block payload is the sum of the column of row sums. -/
theorem pay1_apply (v41 : FVec Ideal S256x1 .f32) (u : Fin 1) (a : Fin 8) (b : Fin 128) :
    k0_pay1 (F := Ideal) v41 (ix3 u a b) = ∑ p : Fin 256, v41 (ix2 p (0 : Fin 1)) := by
  unfold k0_pay1
  refine (shapeCast_ab_1ab_apply _ Facts₀.shapeCasts_S8x128_S1x8x128 u a b).trans ?_
  refine (broadcastTo_apply _ Facts₀.broadcasts_S1x1_S8x128 (ix2 a b) (ix2 (0 : Fin 1) (0 : Fin 1)) (fun ax => by
    match ax with | ⟨0, _⟩ => rfl | ⟨1, _⟩ => rfl)).trans ?_
  rw [shapeCast_self]
  refine (shapeCast_a_1a_apply _ Facts₀.shapeCasts_S1_S1x1 (0 : Fin 1) (0 : Fin 1)).trans ?_
  refine (Ideal.multiReduction_add_single v41 0x00000000#32 Facts₀.reduces_S256x1_S1 (.inl rfl) rfl (ix1 (0 : Fin 1))).trans ?_
  refine Finset.sum_congr rfl fun (p : Fin 256) _ => congrArg v41 (funext fun ax => Fin.ext (by
    match ax with | ⟨0, _⟩ => rfl | ⟨1, _⟩ => rfl))

end Cert.KernelIdeal.Pay

end
-- ==== Proof.LibCosine.lean ====
/-
  Scalar facts on the extended reals behind a cosine similarity with a clamped denominator.

  A kernel that precomputes the reciprocal norms 1/nᵢ multiplies the dot product d by min((1/nᵢ)(1/nⱼ), 1/ε); array
  code divides d by max(nᵢ·nⱼ, ε).  For norms nᵢ, nⱼ ≥ 0 that are real, ε > 0, and a dot product that vanishes with
  either norm (as Σₖ xᵢₖ·xⱼₖ does when row i or row j is zero), the two agree — also at nᵢ = 0, where 1/nᵢ is +∞, the
  minimum is 1/ε, and both sides are 0.
-/
import Idealize.ShloMosaic.PureOps.Ideal

noncomputable section

namespace Cert.LibCosine

open Idealize.ShloMosaic

/-- The inclusion of the reals keeps maxima and minima. -/
theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

/-- The reciprocal of a positive real. -/
theorem div_one_pos {n : ℝ} (h : 0 < n) : Ideal.div 1 (n : EReal) = ((n⁻¹ : ℝ) : EReal) := by
  rw [Ideal.div_coe h.ne', one_mul, one_div]

/-- The reciprocal of zero is +∞. -/
theorem div_one_zero : Ideal.div 1 ((0 : ℝ) : EReal) = ⊤ := by
  simp [Ideal.div]

/-- d · min((1/nᵢ)(1/nⱼ), 1/ε) = d / max(nᵢ·nⱼ, ε). -/
theorem cosine_scale (d ni nj e : ℝ) (hi : 0 ≤ ni) (hj : 0 ≤ nj) (he : 0 < e)
    (hdi : ni = 0 → d = 0) (hdj : nj = 0 → d = 0) :
    (d : EReal) * min (Ideal.div 1 (ni : EReal) * Ideal.div 1 (nj : EReal)) ((1 / e : ℝ) : EReal)
      = Ideal.div (d : EReal) (max ((ni : EReal) * (nj : EReal)) (e : EReal)) := by
  have hmax : max ((ni : EReal) * (nj : EReal)) (e : EReal) = ((max (ni * nj) e : ℝ) : EReal) := by
    rw [← EReal.coe_mul, coe_max]
  have hpos : 0 < max (ni * nj) e := lt_max_of_lt_right he
  rw [hmax, Ideal.div_coe hpos.ne']
  rcases hi.eq_or_lt with hi0 | hi0
  · have hd := hdi hi0.symm
    subst hd
    simp
  rcases hj.eq_or_lt with hj0 | hj0
  · have hd := hdj hj0.symm
    subst hd
    simp
  rw [div_one_pos hi0, div_one_pos hj0, ← EReal.coe_mul, ← coe_min, ← EReal.coe_mul, ← EReal.coe_mul]
  congr 2
  have hp : 0 < ni * nj := mul_pos hi0 hj0
  rw [← mul_inv, one_div, one_div]
  rcases le_total (ni * nj) e with h | h
  · rw [max_eq_right h, min_eq_right ((inv_le_inv₀ he hp).mpr h)]
  · rw [max_eq_left h, min_eq_left ((inv_le_inv₀ hp he).mpr h)]

/-- A sum of squares of reals that vanishes has every term zero. -/
theorem sq_sum_zero {ι : Type} [Fintype ι] (x : ι → ℝ) (h : ∑ k, x k * x k = 0) (k : ι) : x k = 0 := by
  have h0 := (Finset.sum_eq_zero_iff_of_nonneg (fun i _ => mul_self_nonneg (x i))).mp h k (Finset.mem_univ k)
  exact mul_self_eq_zero.mp h0

/-- The square root of a sum of squares vanishes only when every term does. -/
theorem norm_zero {ι : Type} [Fintype ι] (x : ι → ℝ) (h : Real.sqrt (∑ k, x k * x k) = 0) (k : ι) : x k = 0 :=
  sq_sum_zero x (le_antisymm ((Real.sqrt_eq_zero').mp h) (Finset.sum_nonneg fun i _ => mul_self_nonneg (x i))) k

end Cert.LibCosine

end
-- ==== Proof.Consts.lean ====
/-
  The float constants the two programs spell, as the extended reals their words denote at the ideal instance:
  0, 1, and the reference's ε — the f32 nearest 10⁻⁸, which is exactly 11258999 · 2⁻⁵⁰.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_eps : Ideal.ofBits .f32 0x322BCC77#32 = ((11258999 / 1125899906842624 : ℝ) : EReal) := by
  simp [Ideal.ofBits, Ideal.ieee, -EReal.coe_mul]; norm_num

end Cert.Consts

end
-- ==== Proof.LibBlockSum.lean ====
/-
  Sums over a range cut into equal blocks, and sums of real numbers among the extended reals.

  A sum over `Fin (A * B)` is the double sum over a block number `a < A` and a position `b < B` inside the block,
  the entry read at `a * B + b`; two such cuts give the three-level form used for rows grouped first by core, then
  by grid step, then by row inside the step's block. The coercion of the reals into the extended reals commutes
  with finite sums, so a sum of 1s and 0s chosen by a predicate is the number of indices where it holds.
-/
import Mathlib.Algebra.BigOperators.Fin
import Mathlib.Algebra.BigOperators.Ring.Finset
import Mathlib.Data.EReal.Basic
import Mathlib.Logic.Equiv.Fin.Basic

namespace Cert.Lib.BlockSum

/-- Position `b` of block `a` lies inside the range. -/
theorem blk_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right _ a.isLt

/-- A sum over `Fin (A * B)` is the sum over blocks of the sums inside each block. -/
theorem sum_fin_blocks {M : Type*} [AddCommMonoid M] (A B : ℕ) (h : Fin (A * B) → M) :
    ∑ x, h x = ∑ a : Fin A, ∑ b : Fin B, h ⟨a.val * B + b.val, blk_lt a b⟩ := by
  rw [← Equiv.sum_comp finProdFinEquiv h, Fintype.sum_prod_type]
  refine Finset.sum_congr rfl fun a _ => Finset.sum_congr rfl fun b _ => congrArg h (Fin.ext ?_)
  show b.val + B * a.val = a.val * B + b.val
  rw [Nat.mul_comm, Nat.add_comm]

/-- The same for a range whose length is given as a number equal to `A * B`. -/
theorem sum_fin_blocks_of_eq {M : Type*} [AddCommMonoid M] {n : ℕ} (A B : ℕ) (hn : A * B = n) (h : Fin n → M) :
    ∑ x, h x = ∑ a : Fin A, ∑ b : Fin B, h ⟨a.val * B + b.val, hn ▸ blk_lt a b⟩ := by
  subst hn
  exact sum_fin_blocks A B h

/-- Row `r` of step `j` of core `p` lies inside the range. -/
theorem row_lt {P J R n : ℕ} (hn : P * J * R = n) (p : Fin P) (j : Fin J) (r : Fin R) :
    (p.val * J + j.val) * R + r.val < n :=
  hn ▸ blk_lt (⟨p.val * J + j.val, blk_lt p j⟩ : Fin (P * J)) r

/-- A sum over `P * J * R` rows, grouped by core `p`, step `j` and row `r` inside the step's block. -/
theorem sum_rows {M : Type*} [AddCommMonoid M] {n : ℕ} (P J R : ℕ) (hn : P * J * R = n) (g : Fin n → M) :
    ∑ x, g x = ∑ p : Fin P, ∑ j : Fin J, ∑ r : Fin R, g ⟨(p.val * J + j.val) * R + r.val, row_lt hn p j r⟩ := by
  rw [sum_fin_blocks_of_eq (P * J) R hn g,
    sum_fin_blocks P J fun t => ∑ r : Fin R, g ⟨t.val * R + r.val, hn ▸ blk_lt t r⟩]

/-- The coercion of the reals into the extended reals commutes with finite sums. -/
theorem coe_sum {ι : Type*} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- A sum of 1s (where `p` holds) and 0s (where it does not), among the extended reals, is the number of indices
    where `p` holds. -/
theorem sum_indicator {ι : Type*} [Fintype ι] (p : ι → Prop) [DecidablePred p] :
    ∑ i, (((if p i then 1 else 0 : ℝ)) : EReal) = (((Finset.univ.filter p).card : ℝ) : EReal) := by
  rw [← coe_sum, Finset.sum_boole]

end Cert.Lib.BlockSum
-- ==== Proof.BridgeI.lean ====
/-
  The kernel's loss entry and the reference's are one number.

  For a real row matrix X the kernel's logit — the dot product dᵣⱼ = Σₖ XᵣₖXⱼₖ times min((1/nᵣ)(1/nⱼ), c), with nᵣ the
  row norm sqrt(Σₖ Xᵣₖ²) and c the kernel's constant read as 1/ε — is the reference's dᵣⱼ / max(nᵣ·nⱼ, ε): off zero
  norms the reciprocals are real and the minimum of reciprocals is the reciprocal of the maximum; a zero norm makes the
  row zero, hence dᵣⱼ = 0, and both sides vanish.  The rest of the entry — log(1 + e^z) written stably, minus z times the
  token-equality target — is the same function of the logit on both sides once 0 − w is read as −w and the comparison bit
  as 0 or 1.
-/
import proofs.«171782_j38457137168846_2_alg».proof.Proof.RefSide
import proofs.«171782_j38457137168846_2_alg».proof.Proof.PayI
import proofs.«171782_j38457137168846_2_alg».proof.Proof.LibCosine
import proofs.«171782_j38457137168846_2_alg».proof.Proof.Consts
import proofs.«171782_j38457137168846_2_alg».proof.Proof.LibBlockSum
import Idealize.ShloMosaic.PureOps.IdealRules

noncomputable section

namespace Cert.Bridge

open Idealize.ShloMosaic
open Cert.ReferenceIdeal.RefSide (ssq nrm dotR logitR tgtR bceR entryR zeroW epsW)
open Cert.KernelIdeal.Pay (entG cst z0)

/-- The word of 1.0. -/
abbrev oneW : EReal := Ideal.ofBits .f32 0x3F800000#32

/-- The kernel's constant denotes 1/ε, ε the reference's word. -/
theorem cst_val : cst = ((1125899906842624 / 11258999 : ℝ) : EReal) :=
  IdealRules.named_const.ideal_named_scalar _ _ _ _ rfl

/-- A comparison bit widened to a word and read as a signed integer is the bit read as a natural number. -/
theorem tgt_eq (a b : BitVec 32) :
    FloatOps.sitofp (F := Ideal) .f32 ((IntOp.cmpi .eq a b).setWidth 32) = (((IntOp.cmpi .eq a b).toNat : ℝ) : EReal) := by
  have h : ∀ c : BitVec 1, (c.setWidth 32).toInt = ((c.toNat : ℕ) : ℤ) := by decide
  show ((((IntOp.cmpi .eq a b).setWidth 32).toInt : ℝ) : EReal) = _
  rw [h]
  norm_cast

/-- The stable form of log(1 + e^z) − z·t, as the kernel spells it and as the reference does. -/
theorem bce_eq (z t : EReal) :
    Scalar.select (FloatOps.cmpf (F := Ideal) (φ := .f32) .one (z0 - z) (z0 - z)) (z0 + z)
        (max z0 z + FloatOps.log1p (F := Ideal) (φ := .f32) (FloatOps.exp (F := Ideal) (φ := .f32) (z0 - FloatOps.absf (F := Ideal) (φ := .f32) (z0 - z))))
      - z * t = bceR z t := by
  unfold bceR
  have h2 : ∀ w : EReal, Ideal.ofBits .f32 0x00000000#32 - w = -w := fun w => by
    rw [Cert.Consts.ofBits_zero, sub_eq_add_neg, zero_add]
  show Scalar.select (Ideal.cmp .une (zeroW - z) (zeroW - z)) (zeroW + z)
      (max zeroW z + Ideal.log1p (Ideal.exp (Ideal.ofBits .f32 0x00000000#32 - max (zeroW - z) (-(zeroW - z))))) - z * t = _
  rw [h2 (max (zeroW - z) (-(zeroW - z)))]

/-- The logits agree on a real row matrix. -/
theorem logit_eq (x : Fin 4096 → Fin 1024 → ℝ) (r j : Fin 4096) :
    (∑ k : Fin 1024, ((x r k : ℝ) : EReal) * ((x j k : ℝ) : EReal))
        * min (Ideal.div oneW (nrm (fun r k => ((x r k : ℝ) : EReal)) r) * Ideal.div oneW (nrm (fun r k => ((x r k : ℝ) : EReal)) j)) cst
      = logitR (fun r k => ((x r k : ℝ) : EReal)) r j := by
  unfold logitR dotR nrm ssq
  have hn : ∀ r : Fin 4096, Ideal.sqrt (zeroW + ∑ k : Fin 1024, ((x r k : ℝ) : EReal) * ((x r k : ℝ) : EReal))
      = ((Real.sqrt (∑ k : Fin 1024, x r k * x r k) : ℝ) : EReal) := by
    intro r
    rw [show zeroW = (0 : EReal) from Cert.Consts.ofBits_zero, zero_add]
    simp only [← EReal.coe_mul]
    rw [← Cert.Lib.BlockSum.coe_sum, Ideal.sqrt_coe, if_neg (not_lt.mpr (Finset.sum_nonneg fun k _ => mul_self_nonneg _))]
  rw [hn r, hn j]
  simp only [← EReal.coe_mul]
  rw [← Cert.Lib.BlockSum.coe_sum]
  rw [show oneW = (1 : EReal) from Cert.Consts.ofBits_one, cst_val,
    show epsW = ((11258999 / 1125899906842624 : ℝ) : EReal) from Cert.Consts.ofBits_eps,
    show (1125899906842624 / 11258999 : ℝ) = 1 / (11258999 / 1125899906842624) by norm_num]
  exact Cert.LibCosine.cosine_scale (∑ k : Fin 1024, x r k * x j k) (Real.sqrt (∑ k : Fin 1024, x r k * x r k))
    (Real.sqrt (∑ k : Fin 1024, x j k * x j k)) (11258999 / 1125899906842624) (Real.sqrt_nonneg _) (Real.sqrt_nonneg _) (by norm_num)
    (fun h => Finset.sum_eq_zero fun k _ => by rw [Cert.LibCosine.norm_zero (x r) h k, zero_mul])
    (fun h => Finset.sum_eq_zero fun k _ => by rw [Cert.LibCosine.norm_zero (x j) h k, mul_zero])

/-- One entry: the kernel's, from the dot product, the two reciprocal norms and the two token words, is the reference's. -/
theorem ent_eq (X : Fin 4096 → Fin 1024 → EReal) (T : Fin 4096 → BitVec 32) (hX : ∀ r k, ∃ x : ℝ, X r k = (x : EReal))
    (r j : Fin 4096) :
    entG (∑ k : Fin 1024, X r k * X j k) (Ideal.div oneW (nrm X r) * Ideal.div oneW (nrm X j)) (T r) (T j) = entryR X T r j := by
  choose x hx using hX
  obtain rfl : X = fun r k => ((x r k : ℝ) : EReal) := funext fun r => funext fun k => hx r k
  unfold entG entryR tgtR
  rw [logit_eq x r j, tgt_eq]
  exact bce_eq _ _

end Cert.Bridge

end
-- ==== Proof.FiniteRows.lean ====
/-
  Finite inputs. The precondition says that every entry of the data array has absolute value below +∞; an extended
  real with that property is a real number. A gather reads each of its entries from its operand (the start indices
  are clamped, so every read is in bounds), so every entry of the matrix of gathered rows is a real number too.
-/
import proofs.«171782_j38457137168846_2_alg».proof.Pre_finite_inputs
import proofs.«171782_j38457137168846_2_alg».proof.Proof.Gen.ReferenceIdeal.Read
import Idealize.ShloMosaic.Lib.ReduceAll
import Idealize.ShloMosaic.Lib.ValueIdx
import Idealize.ShloMosaic.PureOps.Ideal

noncomputable section

namespace Cert.FiniteRows

open Idealize.ShloMosaic

variable [hP : Cert.Pre_finite_inputs.Facts] [hR : Cert.ReferenceIdeal.Facts]

/-- The shape with no axes has one index. -/
instance : Subsingleton Cert.Pre_finite_inputs.S_.Idx := ⟨fun a b => funext fun d => d.elim0⟩

/-- An extended real whose absolute value `max x (-x)` is below +∞ is a real number: at either infinity the
    absolute value is +∞. -/
theorem real_of_abs_lt_top (x : EReal) (h : max x (-x) < ⊤) : ∃ y : ℝ, x = (y : EReal) := by
  induction x using EReal.rec with
  | bot => simp at h
  | coe y => exact ⟨y, rfl⟩
  | top => simp at h

/-- Every entry of the data array is a real number. -/
theorem data_real (a0 : (⟨Cert.Pre_finite_inputs.S8192x1024, .f32⟩ : BufTy).Contents (Elt Ideal))
    (a1 : (⟨Cert.Pre_finite_inputs.S8192, .i32⟩ : BufTy).Contents (Elt Ideal))
    (a2 : (⟨Cert.Pre_finite_inputs.S4096, .i32⟩ : BufTy).Contents (Elt Ideal))
    (h : Cert.Pre_finite_inputs.fn (F := Ideal) a0 a1 a2 = fun _ => 1#1)
    (i : Cert.Pre_finite_inputs.S8192x1024.Idx) : ∃ x : ℝ, a0 i = (x : EReal) := by
  have h0 := congrFun h (fun d => d.elim0)
  dsimp only [Cert.Pre_finite_inputs.fn] at h0
  have h1 := Host.reduce_andi_all _ _ _ _ _ h0 i
  have h2 : Ideal.cmp .olt (max (a0 i) (-(a0 i))) (Ideal.ofBits .f32 0x7F800000#32) = 1#1 := h1
  have hinf : Ideal.ofBits .f32 0x7F800000#32 = (⊤ : EReal) := by simp [Ideal.ofBits, Ideal.ieee]
  rw [hinf] at h2
  have h3 : max (a0 i) (-(a0 i)) < ⊤ := by
    by_contra hn
    simp [Ideal.cmp, hn] at h2
  exact real_of_abs_lt_top _ h3

/-- Every entry of the matrix of gathered rows is an entry of the data array, so a real number. -/
theorem gathered_real (a0 : (⟨Cert.Pre_finite_inputs.S8192x1024, .f32⟩ : BufTy).Contents (Elt Ideal))
    (a1 : (⟨Cert.Pre_finite_inputs.S8192, .i32⟩ : BufTy).Contents (Elt Ideal))
    (a2 : (⟨Cert.Pre_finite_inputs.S4096, .i32⟩ : BufTy).Contents (Elt Ideal))
    (h : Cert.Pre_finite_inputs.fn (F := Ideal) a0 a1 a2 = fun _ => 1#1)
    (i : Cert.ReferenceIdeal.S4096x1024.Idx) :
    ∃ x : ℝ, Cert.ReferenceIdeal.Read.val_main_v6 (F := Ideal) a0 a2 i = (x : EReal) :=
  data_real a0 a1 a2 h _

end Cert.FiniteRows

end
-- ==== Proof.ValI.lean ====
/-
  The kernel's result is the reference's.

  Grid point t of the kernel handles rows 256·t … 256·t+255: its output block holds Σₚ Σⱼ of the loss entries of those
  rows against every row j; the host sums the sixteen blocks' numbers and divides by 2²⁴.  The reference sums the
  4096 × 4096 entries at once and divides by the same number.  Entry by entry the two agree (the precondition makes
  every gathered entry a real number, which the clamped reciprocal needs), and a sum over 4096 rows is the sum over
  sixteen blocks of 256.
-/
import proofs.«171782_j38457137168846_2_alg».proof.Proof.OutI
import proofs.«171782_j38457137168846_2_alg».proof.Proof.PrefixI
import proofs.«171782_j38457137168846_2_alg».proof.Proof.BridgeI
import proofs.«171782_j38457137168846_2_alg».proof.Proof.FiniteRows
import proofs.«171782_j38457137168846_2_alg».proof.Defs
import proofs.«171782_j38457137168846_2_alg».proof.Proof.Gen.Pre_finite_inputs

noncomputable section

namespace Cert.KernelIdeal.Val

open Cert.KernelIdeal Cert.KernelIdeal.Gen Cert.KernelIdeal.Hand Idealize.ShloMosaic Idealize.ShloMosaic.TcCoe Idealize.ShloMosaic.ValueIdx
open Idealize.SL.Sem
open Cert.ReferenceIdeal.RefSide (Xof Tof entryR zeroW nrm)

variable (m : (ℓ : Loc nD τ sig) → Buf (Elt Ideal) ℓ) (c : Dev nD)

theorem hz3 : (![0, 0, 0] : Fin 3 → Nat) = fun _ => 0 := funext fun a => by fin_cases a <;> rfl
theorem hz2 : (![0, 0] : Fin 2 → Nat) = fun _ => 0 := funext fun a => by fin_cases a <;> rfl

/-- The output block is the block payload of the row payload of the six input blocks. -/
theorem outBlk_eq (x0 : Vec Ideal S256x1024 .bf16) (x1 : Vec Ideal S4096x1024 .bf16) (x2 : Vec Ideal S256x1 .f32) (x3 : Vec Ideal S1x4096 .f32)
    (x4 : Vec Ideal S256x1 .i32) (x5 : Vec Ideal S1x4096 .i32) :
    outBlk (F := Ideal) x0 x1 x2 x3 x4 x5 = k0_pay1 (k0_pay2 x0 x1 x2 x3 x4 x5) := by
  unfold outBlk
  rw [View.canon_unit_zero hz3]
  simp only [View.ld_unit_zero (S := S256x1024) hz2, View.ld_unit_zero (S := S4096x1024) hz2, View.ld_unit_zero (S := S256x1) hz2,
    View.ld_unit_zero (S := S1x4096) hz2]

/-- The gathered rows and tokens, as the reference's terms of the launch memory. -/
abbrev Xm : Fin 4096 → Fin 1024 → EReal :=
  Xof (m ((c : Thread nD τ).loc main_arg0)) (m ((c : Thread nD τ).loc main_arg2))
abbrev Tm : Fin 4096 → BitVec 32 :=
  Tof (m ((c : Thread nD τ).loc main_arg1)) (m ((c : Thread nD τ).loc main_arg2))

/-- Under the precondition every gathered entry is a real number. -/
theorem X_real (hpre : Cert.Pre_KernelIdeal m) (r : Fin 4096) (k : Fin 1024) : ∃ x : ℝ, Xm m c r k = (x : EReal) :=
  Cert.FiniteRows.gathered_real _ _ _ (hpre c) (ix2 r k)

/-- One grid point's number: the loss entries of its 256 rows against every row, summed. -/
theorem point_value (hpre : Cert.Pre_KernelIdeal m) (t : Fin 16) :
    outArr m c (ix3 t (0 : Fin 8) (0 : Fin 128))
      = ∑ p : Fin 256, ∑ j : Fin 4096, entryR (Xm m c) (Tm m c) (Out.rowOf (Out.ptOf t) p) j := by
  rw [Out.outArr_apply m c t, outBlk_eq]
  refine (Pay.pay1_apply _ 0 0 0).trans ?_
  refine Finset.sum_congr rfl fun p _ => ?_
  refine (Pay.pay2_apply _ _ _ _ _ _ p).trans ?_
  refine Finset.sum_congr rfl fun j _ => ?_
  have h0 : ∀ k : Fin 1024, (iblk m c 0 (Out.ptOf t) : S256x1024.Idx → EReal) (ix2 p k)
      = Xm m c (Out.rowOf (Out.ptOf t) p) k := fun k => by
    rw [Out.iblk0_apply, Prefix.V_v14]
  have h1 : ∀ k : Fin 1024, (iblk m c 1 (Out.ptOf t) : S4096x1024.Idx → EReal) (ix2 j k) = Xm m c j k := fun k => by
    rw [Out.iblk1_apply, Prefix.V_v14]
  have h2 := (Out.iblk2_apply m c (Out.ptOf t) p).trans (Prefix.V_v20 m c _)
  have h3 := (Out.iblk3_apply m c (Out.ptOf t) j).trans (Prefix.V_v21 m c _)
  have h4 := (Out.iblk4_apply m c (Out.ptOf t) p).trans (Prefix.V_v22 m c _)
  have h5 := (Out.iblk5_apply m c (Out.ptOf t) j).trans (Prefix.V_v23 m c _)
  rw [h2, h3, h4, h5]
  simp only [h0, h1]
  have key := Cert.Bridge.ent_eq (Xm m c) (Tm m c) (X_real m c hpre) (Out.rowOf (Out.ptOf t) p) j
  unfold Cert.ReferenceIdeal.RefSide.nrm Cert.ReferenceIdeal.RefSide.ssq at key
  exact key

/-- The kernel program's result buffer ends at the reference's result term of the same arguments. -/
theorem kernel_eq_ref (hpre : Cert.Pre_KernelIdeal m) :
    V2 m c (Proc.devRef .tc main_v28) = Cert.ReferenceIdeal.Read.val_main_v48 (F := Ideal) (m ((c : Thread nD τ).loc main_arg0))
      (m ((c : Thread nD τ).loc main_arg1)) (m ((c : Thread nD τ).loc main_arg2)) := by
  funext i
  rw [eq_ix0 i, Out.result_eq m c, Cert.ReferenceIdeal.RefSide.ref_value]
  refine congrArg (fun s => Ideal.div (zeroW + s) (Ideal.ofBits .f32 0x4B800000#32)) ?_
  rw [ValueIdx.sum_idx2, Cert.Lib.BlockSum.sum_fin_blocks_of_eq 16 256 (by norm_num : 16 * 256 = 4096)]
  refine Finset.sum_congr rfl fun t _ => ?_
  exact point_value m c hpre t

end Cert.KernelIdeal.Val

end
-- ==== Proof.lean ====
/-
  The certificate: the three frames, the idealization's one named constant, and the equality of the two idealized
  programs' results.

  Both printed kernels run to the end on every input and leave their arguments alone: @main is host operations, one
  pipelined kernel region, host operations, and the region's two windows onto the row matrix share it half and half.
  The idealized kernel differs from the printed one in reading its constant 10⁸ as 1/ε, ε the reference's own word for
  10⁻⁸.  At the ideal values the kernel's sixteen partial sums, added and divided by 2²⁴, are the reference's mean of the
  4096 × 4096 loss entries: entry by entry min((1/nᵢ)(1/nⱼ), 1/ε)·dᵢⱼ is dᵢⱼ / max(nᵢnⱼ, ε) for real rows.
-/
import proofs.«171782_j38457137168846_2_alg».proof.Defs
import proofs.«171782_j38457137168846_2_alg».proof.Proof.RunB
import proofs.«171782_j38457137168846_2_alg».proof.Proof.ValI
import proofs.«171782_j38457137168846_2_alg».proof.Proof.Gen.Kernel
import proofs.«171782_j38457137168846_2_alg».proof.Proof.Gen.KernelIdeal
import proofs.«171782_j38457137168846_2_alg».proof.Proof.Gen.ReferenceIdeal
import proofs.«171782_j38457137168846_2_alg».proof.Proof.Gen.ReferenceIdeal.Run
import proofs.«171782_j38457137168846_2_alg».proof.Proof.Gen.ReferenceIdeal.Read
import proofs.«171782_j38457137168846_2_alg».proof.Proof.Gen.Pre_finite_inputs
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The printed kernel runs to the end and keeps its arguments. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is a line of host operations: its generated run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite of the ideal pass: the kernel's constant is named, and the name's value is 1/ε. -/
theorem preserves : Cert.preserves_Kernel_KernelIdeal :=
  IdealRules.named_const.statement Cert.KernelIdeal.κ "inv_eps" .f32 0x4CBEBC20#32 ((1125899906842624 / 11258999 : ℝ) : EReal) rfl

/-- At the ideal values both programs end with the same number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v48 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Val.kernel_eq_ref m c hpre), (h c).2⟩)
      (Cert.KernelIdeal.Hand.run_value (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v48_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
